-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S8192x3072 : Shape := ⟨2, ![8192, 3072]⟩
abbrev S256x1024 : Shape := ⟨2, ![256, 1024]⟩
abbrev S256x3072 : Shape := ⟨2, ![256, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S3072x1024, .bf16⟩
  | .hbm, ⟨6, _⟩ => ⟨S1024x1024, .bf16⟩
  | .hbm, ⟨7, _⟩ => ⟨S1x1024, .f32⟩
  | .hbm, ⟨8, _⟩ => ⟨S8192x3072, .bf16⟩
  | .hbm, ⟨9, _⟩ => ⟨S8192x1024, .bf16⟩
  | .hbm, ⟨10, _⟩ => ⟨S8192x1024, .f32⟩
  | .hbm, ⟨11, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S256x3072, .bf16⟩
  | .local _ .vmem, ⟨4, _⟩ => ⟨S256x3072, .bf16⟩
  | .local _ .vmem, ⟨5, _⟩ => ⟨S512x128, .bf16⟩
  | .local _ .vmem, ⟨6, _⟩ => ⟨S512x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S512x128, .bf16⟩
  | .local _ .vmem, ⟨12, _⟩ => ⟨S512x128, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  inb_S512x128_S512x64_0_0 : ∀ a, (![0, 0] : Fin 2 → Nat) a + S512x64.size a ≤ S512x128.size a
  h_S512x64 : 0 < S512x64.numel
  shapeCasts_S512x64_S512x64 : S512x64.ShapeCasts S512x64
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  packedbf16_S512x128_S512x64_0_0 : (Rect.unit (s := S512x128) ![0, 0] S512x64.size inb_S512x128_S512x64_0_0).PackedRows (EltTy.packing .bf16)
  inb_S512x128_S512x64_0_64 : ∀ a, (![0, 64] : Fin 2 → Nat) a + S512x64.size a ≤ S512x128.size a
  inb_S2048x128_S2048x64_0_64 : ∀ a, (![0, 64] : Fin 2 → Nat) a + S2048x64.size a ≤ S2048x128.size a
  packedbf16_S512x128_S512x64_0_64 : (Rect.unit (s := S512x128) ![0, 64] S512x64.size inb_S512x128_S512x64_0_64).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S256x1024_S3072x1024_S256x3072_1_1_0_0_n_n_wf : DotDims.WF S256x1024 S3072x1024 S256x3072 [1] [1] [0] [0] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S8192x3072.size a
  hwx0_2 : ∀ i : grid0.Coords, EltTy.bits .bf16 = 32 ∨ (Rect.block (s := S8192x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x3072.size a
  hwx1_0 : ∀ i : grid1.Coords, EltTy.bits .bf16 = 32 ∨ (Rect.block (s := S8192x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .bf16 = 32 ∨ (Rect.block (s := S8192x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .bf16 = 32 ∨ (Rect.block (s := S8192x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x1024.size a
  hwx1_3 : ∀ i : grid1.Coords, EltTy.bits .bf16 = 32 ∨ (Rect.block (s := S8192x1024) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S3x4x16x2048x64, .f32⟩
  | .hbm, ⟨7, _⟩ => ⟨S1x4x16x2048x64, .f32⟩
  | .hbm, ⟨8, _⟩ => ⟨S4x16x2048x64, .f32⟩
  | .hbm, ⟨9, _⟩ => ⟨S1x4x16x2048x64, .f32⟩
  | .hbm, ⟨10, _⟩ => ⟨S4x16x2048x64, .f32⟩
  | .hbm, ⟨11, _⟩ => ⟨S1x4x16x2048x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.Body0.lean ====
/- The body half of region 0 (the first matrix product) of the program's frame, at any float model.
   The region's kernel reads its two input windows whole (a 256x1024 block of the activations and the whole
   3072x1024 weight matrix), and overwrites its output window (a 256x3072 block) whole with one store whose value is
   a pure function of the two reads. Hence: at every grid point the input staging buffers hold their windows'
   blocks of the arrays as the region found them, whether or not the window was transferred at that point (the
   weights are transferred at the first point only, and their block index never moves); and after the body the
   output staging buffer holds that pure function of the two input blocks, laid over the whole buffer. These
   are the data of the pipeline's invariant, and the body's Hoare triple against them is the region's body
   obligation. -/
import proofs.«173827_j18485539242200_2_alg».proof.Proof.Gen.Kernel.Launch
import proofs.«173827_j18485539242200_2_alg».proof.Proof.Gen.Kernel.Skeleton
import proofs.«173827_j18485539242200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each buffer through its whole rectangle -/

abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S256x3072 := Rect.unit (s := S256x3072) ![0, 0] S256x3072.size inb_S256x3072_S256x3072_0_0

/-! ## What the body leaves in the output window's buffer -/

/-- Window 2's staging buffer after the body, from the input windows' blocks: its one store, over the whole buffer. -/
def out0_2 (x0 : Vec F S256x1024 .f32) (x1 : Vec F S3072x1024 .bf16) : Vec F S256x3072 .bf16 :=
  View.canon [⟨r0_2, k0_pay1 (View.ld x0 r0_0) (View.ld x1 r0_1)⟩]

/-- The one store covers the buffer. -/
theorem cover0_2 (p0 : Vec F S256x3072 .bf16) (y : S256x3072.Idx) :
    ∃ pc ∈ ([⟨r0_2, p0⟩] : List (View.Piece (Elt F) S256x3072 .bf16)), y ∈ pc.1.set :=
  View.cover_of_tiled [⟨r0_2, p0⟩] S256x3072.size (by rfl) y

/-! ## The body's triple -/

set_option maxHeartbeats 1000000 in
/-- The kernel body on whole staging memrefs, the inputs' at read contents x0, x1 and the output's at anything,
    runs to the continuation holding the inputs' as they were and the output's at out0_2 of the inputs'. -/
theorem sound_kernel0 (c : Dev nD) (E : Set ℕ) (i : grid0.Coords)
    (arg1 : Memref sig .tc .vmem S256x1024 .f32) (harg1 : arg1.IsWhole)
    (arg2 : Memref sig .tc .vmem S3072x1024 .bf16) (harg2 : arg2.IsWhole)
    (arg3 : Memref sig .tc .vmem S256x3072 .bf16) (harg3 : arg3.IsWhole)
    (x0 : Vec F S256x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's invariant data -/

/-- The data of pipeline 0 on core c: the arrays as the region finds them; after the body at point t each
    input's buffer at its block and the output's at out0_2 of the input blocks; the invariant that of a body
    touching nothing else; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The activations' staging buffer holds the window's block at every point. The body leaves the block where it
    found it, and a point that does not transfer the window has the block index of the point before: so, transferred
    or not, the buffer holds what a transfer at this point would have brought. -/
theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) keep t d]
  unfold Dat.fetched Dat.blockOf iblk0; rw [A_eq0]; try rfl

/-- The weights' staging buffer holds the whole weight matrix at every point: it is transferred at the first point
    only, its block index is constant, and the body never writes it. -/
theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) keep t d]
  unfold Dat.fetched Dat.blockOf iblk0; rw [A_eq0]; try rfl

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
/-
  Region 1 of the program: the attention kernel on one (batch, head pair, query tile) point.
  Its four windows are a 512 x 128 block of queries, the 2048 x 128 blocks of keys and of values of the point's
  batch and head pair, and the 512 x 128 output block. The body reads the left and the right 64 columns of the
  three inputs (one head each) and stores the two heads' results into the left and the right 64 columns of
  the output block: two pieces that tile the block. Stated here, for any float instance: what the output's
  staging buffer holds after the body as a function of the three input blocks, the body's triple, the proof
  data of the pipeline (each input's buffer at its block at every point, fetched there or not), and the
  body obligation at every grid point.
-/
import proofs.«173827_j18485539242200_2_alg».proof.Proof.Gen.Kernel.Launch
import proofs.«173827_j18485539242200_2_alg».proof.Proof.Gen.Kernel.Skeleton
import proofs.«173827_j18485539242200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the left and the right 64 columns of a block -/

abbrev rq_l : Rect S512x128 := Rect.unit (s := S512x128) ![0, 0] S512x64.size inb_S512x128_S512x64_0_0
abbrev rq_r : Rect S512x128 := Rect.unit (s := S512x128) ![0, 64] S512x64.size inb_S512x128_S512x64_0_64
abbrev rk_l : Rect S2048x128 := Rect.unit (s := S2048x128) ![0, 0] S2048x64.size inb_S2048x128_S2048x64_0_0
abbrev rk_r : Rect S2048x128 := Rect.unit (s := S2048x128) ![0, 64] S2048x64.size inb_S2048x128_S2048x64_0_64

/-! ## What the body leaves in the output window's buffer -/

/-- The output buffer after the body, from the three input blocks: the right head's result over the left head's
    (the later store first). -/
def out1_3 (x0 : Vec F S512x128 .bf16) (x1 : Vec F S2048x128 .bf16) (x2 : Vec F S2048x128 .bf16) : Vec F S512x128 .bf16 :=
  View.canon [⟨rq_r, k1_pay1 (k1_pay3 (View.ld x2 rk_r)) (k1_pay4 (View.ld x0 rq_r) (View.ld x1 rk_r)) (k1_pay5 (View.ld x0 rq_r) (View.ld x1 rk_r))⟩,
    ⟨rq_l, k1_pay2 (View.ld x0 rq_l) (View.ld x1 rk_l) (View.ld x2 rk_l)⟩]

/-- The two stores tile the block, so they cover it. -/
theorem cover1_3 (p0 p1 : Vec F S512x64 .bf16) (y : S512x128.Idx) :
    ∃ pc ∈ ([⟨rq_r, p1⟩, ⟨rq_l, p0⟩] : List (View.Piece (Elt F) S512x128 .bf16)), y ∈ pc.1.set :=
  View.cover_of_tiled [⟨rq_r, p1⟩, ⟨rq_l, p0⟩] S512x64.size (by rfl) y

/-! ## The body's triple -/

set_option maxRecDepth 100000 in
set_option maxHeartbeats 1000000 in
/-- The kernel body on whole staging memrefs, the inputs' at read contents and the output's at anything, runs to the
    continuation holding the inputs' as they were and the output's at `out1_3` of the inputs'. -/
theorem sound_kernel1 (c : Dev nD) (E : Set ℕ) (i : grid1.Coords)
    (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (x0 : Vec F S512x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__fused_attn_kernel i arg3 harg3 arg4 harg4 arg5 harg5 arg6 harg6) K := by
  simp only [cc1__fused_attn_kernel_eq_skeleton]; unfold cc1__fused_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold out1_3
  dsimp only
  exact View.read_writes_eq_canon _ _ _ (cover1_3 _ _)

/-! ## The pipeline's proof data -/

/-- The proof data of the pipeline on core `c`: the arrays as the region finds them; after the body at point `t` each
    input's buffer at its block and the output's at `out1_3` of the three input blocks; the invariant the scoped rest
    and the generator register, untouched; nothing owed. The three input windows read ONE array, so each holds a
    third of it: the left half of the full share, and the two halves of its right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => PosShare.left fullShare
    | ⟨1, _⟩ => PosShare.left (PosShare.right fullShare)
    | ⟨2, _⟩ => PosShare.right (PosShare.right fullShare)
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Arrays1.lean ====
/-
  Region 1 reads ONE array, the packed projection, through three input windows (queries, keys, values) and writes
  another through its output window. The buffer behind the shared array, held whole, is dealt to the three windows
  as three shares that compose to the whole (a half, and the two halves of the other half); at the region's end,
  the three shares, still at the entry contents, compose back.
-/
import proofs.«173827_j18485539242200_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two buffers behind region 1's four windows. -/
theorem arrBufs1_eq (c : Dev nD) (W : (b : Ref sig .tc) → Buf (Elt F) ((c : Thread nD τ).loc b)) :
    (Pipeline.arrBufs spec1 c W : sProp 𝕄)
      = iprop((((c : Thread nD τ).loc main_v4) ↦{fullShare} W main_v4) ∗ (((c : Thread nD τ).loc main_v5) ↦{fullShare} W main_v5)) := by
  unfold Pipeline.arrBufs
  rw [bigSep_eq_bigSepL_of_eq [main_v4, main_v5] (by decide) (by decide)]
  rfl

set_option backward.isDefEq.respectTransparency.types false in
/-- The windows' arrays at contents `G`, window by window, at each window's share. -/
theorem arrays1_eq (c : Dev nD) (G : (w : Fin cfg1.W) → Buf (Elt F) ((cfg1.win w).arr.view.loc (c : Thread nD τ))) :
    (dat1 V c).arrays G
      = iprop((((c : Thread nD τ).loc main_v4) ↦{PosShare.left fullShare} G 0)
          ∗ (((c : Thread nD τ).loc main_v4) ↦{PosShare.left (PosShare.right fullShare)} G 1)
          ∗ (((c : Thread nD τ).loc main_v4) ↦{PosShare.right (PosShare.right fullShare)} G 2)
          ∗ (((c : Thread nD τ).loc main_v5) ↦{fullShare} G 3)) := by
  unfold Dat.arrays
  rw [bigSep_W1]
  rw [(arr_whole1 0).set_eq_univ, (arr_whole1 3).set_eq_univ]
  rfl

/-- The full share of the shared array is its three windows' shares, composed. -/
theorem share3 {ℓ : Loc nD τ sig} (f : Buf (Elt F) ℓ) :
    (ℓ ↦{fullShare} f : sProp 𝕄) ⊣⊢ iprop((ℓ ↦{PosShare.left fullShare} f) ∗ (ℓ ↦{PosShare.left (PosShare.right fullShare)} f) ∗ (ℓ ↦{PosShare.right (PosShare.right fullShare)} f)) := by
  constructor
  · iintro H
    ihave H' := (pointsTo_share (PosShare.mem_left_op_right fullShare)).1 $$ H
    icases H' with ⟨Hl, Hr⟩
    ihave Hr' := (pointsTo_share (PosShare.mem_left_op_right fullShare.right)).1 $$ Hr
    icases Hr' with ⟨Hrl, Hrr⟩
    isplitl [Hl]; · iexact Hl
    isplitl [Hrl]; · iexact Hrl
    iexact Hrr
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl]; · iexact Hrl
    iexact Hrr

set_option backward.isDefEq.respectTransparency.types false in
/-- ENTRY and EXIT of region 1, the arrays' part: the two buffers behind its windows, whole at contents `W`, are its
    four windows' arrays at contents that read `W` — both ways. -/
theorem arrays1_iff (c : Dev nD) (W : (b : Ref sig .tc) → Buf (Elt F) ((c : Thread nD τ).loc b))
    (G : (w : Fin cfg1.W) → Buf (Elt F) ((cfg1.win w).arr.view.loc (c : Thread nD τ)))
    (h0 : G 0 = W main_v4) (h1 : G 1 = W main_v4) (h2 : G 2 = W main_v4) (h3 : G 3 = W main_v5) :
    (Pipeline.arrBufs spec1 c W : sProp 𝕄) ⊣⊢ (dat1 V c).arrays G := by
  rw [arrBufs1_eq, arrays1_eq, h0, h1, h2, h3]
  constructor
  · iintro ⟨H4, H5⟩
    ihave H4' := (share3 (F := F) (W main_v4)).1 $$ H4
    icases H4' with ⟨Ha, Hb, Hc⟩
    isplitl [Ha]; · iexact Ha
    isplitl [Hb]; · iexact Hb
    isplitl [Hc]; · iexact Hc
    iexact H5
  · iintro ⟨Ha, Hb, Hc, H5⟩
    isplitr [H5]
    · iapply (share3 (F := F) (W main_v4)).2
      isplitl [Ha]; · iexact Ha
      isplitl [Hb]; · iexact Hb
      iexact Hc
    iexact H5

end Cert.Kernel.Hand

end
-- ==== Proof.K.Body2.lean ====
/- The body half of region 2 (the output projection: a matrix product plus a bias row) of the program's frame, at
   any float model. The region's kernel reads its three input windows whole (a 512x1024 block of the attention
   output, the whole 1024x1024 weight matrix and the whole 1x1024 bias row), and overwrites its output window (a
   512x1024 block) whole with one store whose value is a pure function of the three reads. Hence: at every grid
   point the input staging buffers hold their windows' blocks of the arrays as the region found them, whether or
   not the window was transferred at that point (the weights and the bias are transferred at the first point only,
   and their block indices never move); and after the body the output staging buffer holds that pure function of
   the three input blocks, laid over the whole buffer. These are the data of the pipeline's invariant, and the
   body's Hoare triple against them is the region's body obligation. -/
import proofs.«173827_j18485539242200_2_alg».proof.Proof.Gen.Kernel.Launch
import proofs.«173827_j18485539242200_2_alg».proof.Proof.Gen.Kernel.Skeleton
import proofs.«173827_j18485539242200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer through its whole rectangle -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- Window 3's staging buffer after the body, from the input windows' blocks: its one store, over the whole buffer. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole staging memrefs, the inputs' at read contents x0, x1, x2 and the output's at anything,
    runs to the continuation holding the inputs' as they were and the output's at out2_3 of the inputs'. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's invariant data -/

/-- The data of pipeline 2 on core c: the arrays as the region finds them; after the body at point t each
    input's buffer at its block and the output's at out2_3 of the input blocks; the invariant that of a body
    touching nothing else; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- The left operand's staging buffer holds the window's block at every point. The body leaves the block where it
    found it, and a point that does not transfer the window has the block index of the point before: so, transferred
    or not, the buffer holds what a transfer at this point would have brought. -/
theorem before2_0 (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) keep t d]
  unfold Dat.fetched Dat.blockOf iblk2; rw [A_eq2]; try rfl

/-- The weights' staging buffer holds the whole weight matrix at every point: it is transferred at the first point
    only, its block index is constant, and the body never writes it. -/
theorem before2_1 (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) keep t d]
  unfold Dat.fetched Dat.blockOf iblk2; rw [A_eq2]; try rfl

/-- The bias's staging buffer holds the whole bias row at every point, for the same reason. -/
theorem before2_2 (c : Dev nD) (t : Fin cfg2.N) (d) : (dat2 V c).before 2 t d = iblk2 V c 2 t := by
  have keep : ∀ s, (cfg2.win 2).cut (cfg2.grid.coords s) ((dat2 V c).after 2 s) = (dat2 V c).blockOf 2 s := fun s => by
    rw [after2_2]; unfold Dat.blockOf iblk2; rw [A_eq2]; try rfl
  rw [(dat2 V c).before_in_eq_fetched 2 rfl (fun _ => rfl) (fun _ _ _ => rfl) keep t d]
  unfold Dat.fetched Dat.blockOf iblk2; rw [A_eq2]; try rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Run.lean ====
/-
  The program's run, region by region. Between two items of the program every unscoped buffer of a core is held whole
  at known contents: the launch memory, then the four host operations' results, then after each region the region's
  output array at what its write-backs leave (the pipeline's fold of the blocks each grid point wrote), every other
  buffer as before. Each region is entered from that state and left at the next: its windows' arrays are taken out of
  the unscoped buffers (region 1's three input windows share one array, dealt to them as three shares), the generator
  register goes into the kernel's invariant and comes back, nothing is owed, and at the end the arrays are put back.
-/
import proofs.«173827_j18485539242200_2_alg».proof.Proof.K.Body0
import proofs.«173827_j18485539242200_2_alg».proof.Proof.K.Arrays1
import proofs.«173827_j18485539242200_2_alg».proof.Proof.K.Body2
import proofs.«173827_j18485539242200_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents: the launch memory after the four host operations. -/
abbrev En0 (c : Dev nD) (b : Ref sig .tc) : Buf (Elt F) ((c : Thread nD τ).loc b) := V1 m c b
/-- What region 0 leaves in the packed projection's array. -/
def arr0 (c : Dev nD) : Buf (Elt F) ((c : Thread nD τ).loc main_v4) := (dat0 (En0 m) c).arrAt 2 cfg0.N
/-- Every unscoped buffer after region 0. -/
abbrev Va2 (c : Dev nD) : Valuation τ sig (Elt F) := Function.update (V1 m c) main_v4 (arr0 m c)
/-- Region 1's entry contents. -/
abbrev En1 (c : Dev nD) (b : Ref sig .tc) : Buf (Elt F) ((c : Thread nD τ).loc b) := Va2 m c b
/-- What region 1 leaves in the attention output's array. -/
def arr1 (c : Dev nD) : Buf (Elt F) ((c : Thread nD τ).loc main_v5) := (dat1 (En1 m) c).arrAt 3 cfg1.N
/-- Every unscoped buffer after region 1. -/
abbrev Va3 (c : Dev nD) : Valuation τ sig (Elt F) := Function.update (Va2 m c) main_v5 (arr1 m c)
/-- Region 2's entry contents. -/
abbrev En2 (c : Dev nD) (b : Ref sig .tc) : Buf (Elt F) ((c : Thread nD τ).loc b) := Va3 m c b
/-- What region 2 leaves in the result's array. -/
def arr2 (c : Dev nD) : Buf (Elt F) ((c : Thread nD τ).loc main_v6) := (dat2 (En2 m) c).arrAt 3 cfg2.N
/-- Every unscoped buffer after region 2. -/
abbrev Va4 (c : Dev nD) : Valuation τ sig (Elt F) := Function.update (Va3 m c) main_v6 (arr2 m c)

/-- What the regions leave, as the family the generated boundary contents are written over. -/
def outs : Outs (F := F) := fun J r c =>
  match J with
  | 2 => Va2 m c r
  | 3 => Va3 m c r
  | 4 => Va4 m c r
  | _ => V0 m c r

theorem V2_eq (c : Dev nD) : V2 m (outs m) c = Va2 m c := by
  show Function.update (V1 m c) main_v4 (Function.update (V1 m c) main_v4 (arr0 m c) main_v4) = _
  rw [Function.update_self]
theorem V3_eq (c : Dev nD) : V3 m (outs m) c = Va3 m c := by
  show Function.update (V2 m (outs m) c) main_v5 (Function.update (Va2 m c) main_v5 (arr1 m c) main_v5) = _
  rw [Function.update_self, V2_eq]
theorem V4_eq (c : Dev nD) : V4 m (outs m) c = Va4 m c := by
  show Function.update (V3 m (outs m) c) main_v6 (Function.update (Va3 m c) main_v6 (arr2 m c) main_v6) = _
  rw [Function.update_self, V3_eq]

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers a core holds, through every item, its generator register at some state and owes nothing. -/
abbrev R (c : Dev nD) : sProp 𝕄 := iprop((∃ r, prngReg c r) ∗ ∃ W, owes (c : Thread nD τ) (0 : CellTallies nD τ sig Unit) W)

/-! ## What each region leaves in each of its arrays, against the next boundary's contents -/

theorem hF0 (c : Dev nD) : ∀ w : Fin cfg0.W, (dat0 (En0 m) c).arrAt w cfg0.N = V2 m (outs m) c (Pipeline.arrRef spec0 w)
  | ⟨0, _⟩ => ((dat0 (En0 m) c).arrAt_in 0 rfl _).trans ((A_eq0 (En0 m) c 0).trans (V2_of m (outs m) c main_v0 (by decide)).symm)
  | ⟨1, _⟩ => ((dat0 (En0 m) c).arrAt_in 1 rfl _).trans ((A_eq0 (En0 m) c 1).trans (V2_of m (outs m) c main_v1 (by decide)).symm)
  | ⟨2, _⟩ => by rw [V2_eq]; exact (Function.update_self (Proc.devRef .tc main_v4 : DevRef τ sig) (arr0 m c) (V1 m c)).symm
theorem hrest0 (c : Dev nD) (b : Ref sig .tc) (hb : b ∉ Finset.univ.image (Pipeline.arrRef spec0)) : V2 m (outs m) c b = En0 m c b :=
  V2_of m (outs m) c b (fun h => hb (by rw [List.mem_singleton.mp h]; decide))

theorem hF1 (c : Dev nD) : ∀ w : Fin cfg1.W, (dat1 (En1 m) c).arrAt w cfg1.N = V3 m (outs m) c (Pipeline.arrRef spec1 w)
  | ⟨0, _⟩ => ((dat1 (En1 m) c).arrAt_in 0 rfl _).trans ((A_eq1 (En1 m) c 0).trans (by rw [V3_eq]; exact (Function.update_of_ne (StableHlo.devRef_ne_of_ne (by decide)) _ _).symm))
  | ⟨1, _⟩ => ((dat1 (En1 m) c).arrAt_in 1 rfl _).trans ((A_eq1 (En1 m) c 1).trans (by rw [V3_eq]; exact (Function.update_of_ne (StableHlo.devRef_ne_of_ne (by decide)) _ _).symm))
  | ⟨2, _⟩ => ((dat1 (En1 m) c).arrAt_in 2 rfl _).trans ((A_eq1 (En1 m) c 2).trans (by rw [V3_eq]; exact (Function.update_of_ne (StableHlo.devRef_ne_of_ne (by decide)) _ _).symm))
  | ⟨3, _⟩ => by rw [V3_eq]; exact (Function.update_self (Proc.devRef .tc main_v5 : DevRef τ sig) (arr1 m c) (Va2 m c)).symm
theorem hrest1 (c : Dev nD) (b : Ref sig .tc) (hb : b ∉ Finset.univ.image (Pipeline.arrRef spec1)) : V3 m (outs m) c b = En1 m c b := by
  rw [V3_eq]
  exact Function.update_of_ne (StableHlo.devRef_ne_of_ne (fun h => hb (by rw [h]; decide))) _ _

theorem hF2 (c : Dev nD) : ∀ w : Fin cfg2.W, (dat2 (En2 m) c).arrAt w cfg2.N = V4 m (outs m) c (Pipeline.arrRef spec2 w)
  | ⟨0, _⟩ => ((dat2 (En2 m) c).arrAt_in 0 rfl _).trans ((A_eq2 (En2 m) c 0).trans (by rw [V4_eq]; exact (Function.update_of_ne (StableHlo.devRef_ne_of_ne (by decide)) _ _).symm))
  | ⟨1, _⟩ => ((dat2 (En2 m) c).arrAt_in 1 rfl _).trans ((A_eq2 (En2 m) c 1).trans (by rw [V4_eq]; exact (Function.update_of_ne (StableHlo.devRef_ne_of_ne (by decide)) _ _).symm))
  | ⟨2, _⟩ => ((dat2 (En2 m) c).arrAt_in 2 rfl _).trans ((A_eq2 (En2 m) c 2).trans (by rw [V4_eq]; exact (Function.update_of_ne (StableHlo.devRef_ne_of_ne (by decide)) _ _).symm))
  | ⟨3, _⟩ => by rw [V4_eq]; exact (Function.update_self (Proc.devRef .tc main_v6 : DevRef τ sig) (arr2 m c) (Va3 m c)).symm
theorem hrest2 (c : Dev nD) (b : Ref sig .tc) (hb : b ∉ Finset.univ.image (Pipeline.arrRef spec2)) : V4 m (outs m) c b = En2 m c b := by
  rw [V4_eq]
  exact Function.update_of_ne (StableHlo.devRef_ne_of_ne (fun h => hb (by rw [h]; decide))) _ _

/-! ## Taking a region's arrays out of the unscoped buffers, and putting them back -/

set_option backward.isDefEq.respectTransparency.types false in
theorem entry0 (c : Dev nD) : (StableHlo.held (c : Thread nD τ) (Pipeline.ucRefs τ sig) (V1 m c) : sProp 𝕄)
    ⊢ iprop((pdats m 0 c).arrays ((pdats m 0 c).arrAt · 0) ∗ Pipeline.unscopedRest spec0 c (En0 m c)) := by
  have h := Pipeline.arrays_of_unscopedBufs (p := 0) (pcfgs (F := F)) adm (pdats m) launch0.win launch0.arr_whole c
    ((pdats m 0 c).share_full fun _ => rfl) (En0 m c) fun _ => rfl
  rw [Pipeline.unscopedBufs_held] at h
  exact h
set_option backward.isDefEq.respectTransparency.types false in
theorem exit0 (c : Dev nD) : iprop((pdats m 0 c).arrays ((pdats m 0 c).arrAt · cfg0.N) ∗ Pipeline.unscopedRest spec0 c (En0 m c))
    ⊢ (StableHlo.held (c : Thread nD τ) (Pipeline.ucRefs τ sig) (V2 m (outs m) c) : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (En0 m c) (fun b => V2 m (outs m) c b) ((pdats m 0 c).arrAt · cfg0.N) (hF0 m c) (hrest0 m c)
  rw [Pipeline.unscopedBufs_held] at h
  exact h

set_option backward.isDefEq.respectTransparency.types false in
theorem entry2 (c : Dev nD) : (StableHlo.held (c : Thread nD τ) (Pipeline.ucRefs τ sig) (V3 m (outs m) c) : sProp 𝕄)
    ⊢ iprop((pdats m 2 c).arrays ((pdats m 2 c).arrAt · 0) ∗ Pipeline.unscopedRest spec2 c (En2 m c)) := by
  have h := Pipeline.arrays_of_unscopedBufs (p := 2) (pcfgs (F := F)) adm (pdats m) launch2.win launch2.arr_whole c
    ((pdats m 2 c).share_full fun _ => rfl) (En2 m c) fun _ => rfl
  rw [Pipeline.unscopedBufs_held] at h
  rw [V3_eq]
  exact h
set_option backward.isDefEq.respectTransparency.types false in
theorem exit2 (c : Dev nD) : iprop((pdats m 2 c).arrays ((pdats m 2 c).arrAt · cfg2.N) ∗ Pipeline.unscopedRest spec2 c (En2 m c))
    ⊢ (StableHlo.held (c : Thread nD τ) (Pipeline.ucRefs τ sig) (V4 m (outs m) c) : sProp 𝕄) := by
  have h := Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (En2 m c) (fun b => V4 m (outs m) c b) ((pdats m 2 c).arrAt · cfg2.N) (hF2 m c) (hrest2 m c)
  rw [Pipeline.unscopedBufs_held] at h
  exact h

set_option backward.isDefEq.respectTransparency.types false in
/-- Region 1's entry: the unscoped buffers are the two buffers behind its windows and the rest; the packed projection's
    buffer is dealt to the three input windows as three shares. -/
theorem entry1 (c : Dev nD) : (StableHlo.held (c : Thread nD τ) (Pipeline.ucRefs τ sig) (V2 m (outs m) c) : sProp 𝕄)
    ⊢ iprop((dat1 (En1 m) c).arrays (fun w => (dat1 (En1 m) c).arrAt w 0) ∗ Pipeline.unscopedRest spec1 c (En1 m c)) := by
  rw [V2_eq, ← Pipeline.unscopedBufs_held, Pipeline.unscopedBufs_split₀ (Pipeline.pin (pcfgs (F := F)) adm) 1 winFacts₀1.arr_unscoped c (En1 m c)]
  have key := (arrays1_iff (En1 m) c (En1 m c) (fun w => (dat1 (En1 m) c).arrAt w 0) rfl rfl rfl rfl).1
  exact sep_mono key .rfl
set_option backward.isDefEq.respectTransparency.types false in
/-- Region 1's exit: the three shares, still at the entry contents, compose back to the whole buffer; the output's
    buffer is at what the pipeline leaves. -/
theorem exit1 (c : Dev nD) : iprop((dat1 (En1 m) c).arrays (fun w => (dat1 (En1 m) c).arrAt w cfg1.N) ∗ Pipeline.unscopedRest spec1 c (En1 m c))
    ⊢ (StableHlo.held (c : Thread nD τ) (Pipeline.ucRefs τ sig) (V3 m (outs m) c) : sProp 𝕄) := by
  rw [← Pipeline.unscopedBufs_held, Pipeline.unscopedBufs_split₀ (Pipeline.pin (pcfgs (F := F)) adm) 1 winFacts₀1.arr_unscoped c (fun b => V3 m (outs m) c b)]
  have key := (arrays1_iff (En1 m) c (fun b => V3 m (outs m) c b) (fun w => (dat1 (En1 m) c).arrAt w cfg1.N) (hF1 m c 0) (hF1 m c 1) (hF1 m c 2) (hF1 m c 3)).2
  refine sep_mono key (Entails.of_eq ?_)
  unfold Pipeline.unscopedRest
  exact bigSep_congr fun b hb => by dsimp only; rw [hrest1 m c b (Finset.mem_sdiff.mp hb).2]

set_option backward.isDefEq.respectTransparency.types false in
/-- Region 0 as a segment: entered from every unscoped buffer at the contents before it, left at the contents after it.
    At the entry its windows' arrays are taken out of the unscoped buffers and the generator register goes into the
    kernel's invariant; at the exit the register comes back and the arrays, at what the pipeline leaves, go back among
    the unscoped buffers. The kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after it.
    At the entry its windows' arrays are taken out of the unscoped buffers and the generator register goes into the
    kernel's invariant; at the exit the register comes back and the arrays, at what the pipeline leaves, go back among
    the unscoped buffers. The kernel has no semaphore of its own and owes nothing. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest spec1 c (En1 m c))
        ⊢ (StableHlo.held (c : Thread nD τ) (Pipeline.ucRefs τ sig) (V3 m (outs m) c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents before it, left at the contents after it.
    At the entry its windows' arrays are taken out of the unscoped buffers and the generator register goes into the
    kernel's invariant; at the exit the register comes back and the arrays, at what the pipeline leaves, go back among
    the unscoped buffers. The kernel has no semaphore of its own and owes nothing. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := entry2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's, at every region's staging cells. -/
abbrev u₀ : UR sig nD τ := initOf (Pipeline.cells cfgs cellOf_inj) (Pipeline.launchToks cfgs cellOf_inj)

set_option backward.isDefEq.respectTransparency.types false in
/-- THE RUN. From any memory with zero counters every weakly fair execution of the program terminates without a
    fault, and in every final memory each unscoped buffer of each core holds the last boundary's contents: the
    launch contents, the host operations' results, and each region's output array at what its pipeline leaves. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := u₀)
    (hu₀ := by
      iintro Hu; imodintro
      isplitl [Hu]
      · iapply (show (ownU u₀ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m (outs m) c))
    (hch := fun c => ⟨.rfl, .rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨Hh, HSI⟩
      unfold StableHlo.held
      imodintro
      iapply (pointsTo_read_all (Pipeline.ucRefs τ sig) (fun b => (((c : Thread nD τ)).1, b)) (V5 m (outs m) c) s')
      isplitl [Hh] <;> iassumption)
    (hQ := fun _ h => h)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program terminates without a fault and every argument array ends as launched (no host operation
    writes one, no region's output window is on one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V5_main_arg0 m (outs m) c),
     (h c _ (mem_uc main_arg1 (by decide))).trans (V5_main_arg1 m (outs m) c),
     (h c _ (mem_uc main_arg2 (by decide))).trans (V5_main_arg2 m (outs m) c),
     (h c _ (mem_uc main_arg3 (by decide))).trans (V5_main_arg3 m (outs m) c)⟩) (run_all m ρ)

end Cert.Kernel.Hand

end
-- ==== Proof.KI.Body0.lean ====
/- The body half of region 0 (the first matrix product) of the program's frame, at any float model.
   The region's kernel reads its two input windows whole (a 256x1024 block of the activations and the whole
   3072x1024 weight matrix), and overwrites its output window (a 256x3072 block) whole with one store whose value is
   a pure function of the two reads. Hence: at every grid point the input staging buffers hold their windows'
   blocks of the arrays as the region found them, whether or not the window was transferred at that point (the
   weights are transferred at the first point only, and their block index never moves); and after the body the
   output staging buffer holds that pure function of the two input blocks, laid over the whole buffer. These
   are the data of the pipeline's invariant, and the body's Hoare triple against them is the region's body
   obligation. -/
import proofs.«173827_j18485539242200_2_alg».proof.Proof.Gen.KernelIdeal.Launch
import proofs.«173827_j18485539242200_2_alg».proof.Proof.Gen.KernelIdeal.Skeleton
import proofs.«173827_j18485539242200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each buffer through its whole rectangle -/

abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S256x3072 := Rect.unit (s := S256x3072) ![0, 0] S256x3072.size inb_S256x3072_S256x3072_0_0

/-! ## What the body leaves in the output window's buffer -/

/-- Window 2's staging buffer after the body, from the input windows' blocks: its one store, over the whole buffer. -/
def out0_2 (x0 : Vec F S256x1024 .f32) (x1 : Vec F S3072x1024 .bf16) : Vec F S256x3072 .bf16 :=
  View.canon [⟨r0_2, k0_pay1 (View.ld x0 r0_0) (View.ld x1 r0_1)⟩]

/-- The one store covers the buffer. -/
theorem cover0_2 (p0 : Vec F S256x3072 .bf16) (y : S256x3072.Idx) :
    ∃ pc ∈ ([⟨r0_2, p0⟩] : List (View.Piece (Elt F) S256x3072 .bf16)), y ∈ pc.1.set :=
  View.cover_of_tiled [⟨r0_2, p0⟩] S256x3072.size (by rfl) y

/-! ## The body's triple -/

set_option maxHeartbeats 1000000 in
/-- The kernel body on whole staging memrefs, the inputs' at read contents x0, x1 and the output's at anything,
    runs to the continuation holding the inputs' as they were and the output's at out0_2 of the inputs'. -/
theorem sound_kernel0 (c : Dev nD) (E : Set ℕ) (i : grid0.Coords)
    (arg1 : Memref sig .tc .vmem S256x1024 .f32) (harg1 : arg1.IsWhole)
    (arg2 : Memref sig .tc .vmem S3072x1024 .bf16) (harg2 : arg2.IsWhole)
    (arg3 : Memref sig .tc .vmem S256x3072 .bf16) (harg3 : arg3.IsWhole)
    (x0 : Vec F S256x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's invariant data -/

/-- The data of pipeline 0 on core c: the arrays as the region finds them; after the body at point t each
    input's buffer at its block and the output's at out0_2 of the input blocks; the invariant that of a body
    touching nothing else; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The activations' staging buffer holds the window's block at every point. The body leaves the block where it
    found it, and a point that does not transfer the window has the block index of the point before: so, transferred
    or not, the buffer holds what a transfer at this point would have brought. -/
theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) keep t d]
  unfold Dat.fetched Dat.blockOf iblk0; rw [A_eq0]; try rfl

/-- The weights' staging buffer holds the whole weight matrix at every point: it is transferred at the first point
    only, its block index is constant, and the body never writes it. -/
theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) keep t d]
  unfold Dat.fetched Dat.blockOf iblk0; rw [A_eq0]; try rfl

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
/-
  Region 1 of the program: the attention kernel on one (batch, head pair, query tile) point.
  Its four windows are a 512 x 128 block of queries, the 2048 x 128 blocks of keys and of values of the point's
  batch and head pair, and the 512 x 128 output block. The body reads the left and the right 64 columns of the
  three inputs (one head each) and stores the two heads' results into the left and the right 64 columns of
  the output block: two pieces that tile the block. Stated here, for any float instance: what the output's
  staging buffer holds after the body as a function of the three input blocks, the body's triple, the proof
  data of the pipeline (each input's buffer at its block at every point, fetched there or not), and the
  body obligation at every grid point.
-/
import proofs.«173827_j18485539242200_2_alg».proof.Proof.Gen.KernelIdeal.Launch
import proofs.«173827_j18485539242200_2_alg».proof.Proof.Gen.KernelIdeal.Skeleton
import proofs.«173827_j18485539242200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the left and the right 64 columns of a block -/

abbrev rq_l : Rect S512x128 := Rect.unit (s := S512x128) ![0, 0] S512x64.size inb_S512x128_S512x64_0_0
abbrev rq_r : Rect S512x128 := Rect.unit (s := S512x128) ![0, 64] S512x64.size inb_S512x128_S512x64_0_64
abbrev rk_l : Rect S2048x128 := Rect.unit (s := S2048x128) ![0, 0] S2048x64.size inb_S2048x128_S2048x64_0_0
abbrev rk_r : Rect S2048x128 := Rect.unit (s := S2048x128) ![0, 64] S2048x64.size inb_S2048x128_S2048x64_0_64

/-! ## What the body leaves in the output window's buffer -/

/-- The output buffer after the body, from the three input blocks: the right head's result over the left head's
    (the later store first). -/
def out1_3 (x0 : Vec F S512x128 .bf16) (x1 : Vec F S2048x128 .bf16) (x2 : Vec F S2048x128 .bf16) : Vec F S512x128 .bf16 :=
  View.canon [⟨rq_r, k1_pay1 (k1_pay3 (View.ld x2 rk_r)) (k1_pay4 (View.ld x0 rq_r) (View.ld x1 rk_r)) (k1_pay5 (View.ld x0 rq_r) (View.ld x1 rk_r))⟩,
    ⟨rq_l, k1_pay2 (View.ld x0 rq_l) (View.ld x1 rk_l) (View.ld x2 rk_l)⟩]

/-- The two stores tile the block, so they cover it. -/
theorem cover1_3 (p0 p1 : Vec F S512x64 .bf16) (y : S512x128.Idx) :
    ∃ pc ∈ ([⟨rq_r, p1⟩, ⟨rq_l, p0⟩] : List (View.Piece (Elt F) S512x128 .bf16)), y ∈ pc.1.set :=
  View.cover_of_tiled [⟨rq_r, p1⟩, ⟨rq_l, p0⟩] S512x64.size (by rfl) y

/-! ## The body's triple -/

set_option maxRecDepth 100000 in
set_option maxHeartbeats 1000000 in
/-- The kernel body on whole staging memrefs, the inputs' at read contents and the output's at anything, runs to the
    continuation holding the inputs' as they were and the output's at `out1_3` of the inputs'. -/
theorem sound_kernel1 (c : Dev nD) (E : Set ℕ) (i : grid1.Coords)
    (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (x0 : Vec F S512x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__fused_attn_kernel i arg3 harg3 arg4 harg4 arg5 harg5 arg6 harg6) K := by
  simp only [cc1__fused_attn_kernel_eq_skeleton]; unfold cc1__fused_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold out1_3
  dsimp only
  exact View.read_writes_eq_canon _ _ _ (cover1_3 _ _)

/-! ## The pipeline's proof data -/

/-- The proof data of the pipeline on core `c`: the arrays as the region finds them; after the body at point `t` each
    input's buffer at its block and the output's at `out1_3` of the three input blocks; the invariant the scoped rest
    and the generator register, untouched; nothing owed. The three input windows read ONE array, so each holds a
    third of it: the left half of the full share, and the two halves of its right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => PosShare.left fullShare
    | ⟨1, _⟩ => PosShare.left (PosShare.right fullShare)
    | ⟨2, _⟩ => PosShare.right (PosShare.right fullShare)
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Arrays1.lean ====
/-
  Region 1 reads ONE array, the packed projection, through three input windows (queries, keys, values) and writes
  another through its output window. The buffer behind the shared array, held whole, is dealt to the three windows
  as three shares that compose to the whole (a half, and the two halves of the other half); at the region's end,
  the three shares, still at the entry contents, compose back.
-/
import proofs.«173827_j18485539242200_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two buffers behind region 1's four windows. -/
theorem arrBufs1_eq (c : Dev nD) (W : (b : Ref sig .tc) → Buf (Elt F) ((c : Thread nD τ).loc b)) :
    (Pipeline.arrBufs spec1 c W : sProp 𝕄)
      = iprop((((c : Thread nD τ).loc main_v4) ↦{fullShare} W main_v4) ∗ (((c : Thread nD τ).loc main_v5) ↦{fullShare} W main_v5)) := by
  unfold Pipeline.arrBufs
  rw [bigSep_eq_bigSepL_of_eq [main_v4, main_v5] (by decide) (by decide)]
  rfl

set_option backward.isDefEq.respectTransparency.types false in
/-- The windows' arrays at contents `G`, window by window, at each window's share. -/
theorem arrays1_eq (c : Dev nD) (G : (w : Fin cfg1.W) → Buf (Elt F) ((cfg1.win w).arr.view.loc (c : Thread nD τ))) :
    (dat1 V c).arrays G
      = iprop((((c : Thread nD τ).loc main_v4) ↦{PosShare.left fullShare} G 0)
          ∗ (((c : Thread nD τ).loc main_v4) ↦{PosShare.left (PosShare.right fullShare)} G 1)
          ∗ (((c : Thread nD τ).loc main_v4) ↦{PosShare.right (PosShare.right fullShare)} G 2)
          ∗ (((c : Thread nD τ).loc main_v5) ↦{fullShare} G 3)) := by
  unfold Dat.arrays
  rw [bigSep_W1]
  rw [(arr_whole1 0).set_eq_univ, (arr_whole1 3).set_eq_univ]
  rfl

/-- The full share of the shared array is its three windows' shares, composed. -/
theorem share3 {ℓ : Loc nD τ sig} (f : Buf (Elt F) ℓ) :
    (ℓ ↦{fullShare} f : sProp 𝕄) ⊣⊢ iprop((ℓ ↦{PosShare.left fullShare} f) ∗ (ℓ ↦{PosShare.left (PosShare.right fullShare)} f) ∗ (ℓ ↦{PosShare.right (PosShare.right fullShare)} f)) := by
  constructor
  · iintro H
    ihave H' := (pointsTo_share (PosShare.mem_left_op_right fullShare)).1 $$ H
    icases H' with ⟨Hl, Hr⟩
    ihave Hr' := (pointsTo_share (PosShare.mem_left_op_right fullShare.right)).1 $$ Hr
    icases Hr' with ⟨Hrl, Hrr⟩
    isplitl [Hl]; · iexact Hl
    isplitl [Hrl]; · iexact Hrl
    iexact Hrr
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl]; · iexact Hrl
    iexact Hrr

set_option backward.isDefEq.respectTransparency.types false in
/-- ENTRY and EXIT of region 1, the arrays' part: the two buffers behind its windows, whole at contents `W`, are its
    four windows' arrays at contents that read `W` — both ways. -/
theorem arrays1_iff (c : Dev nD) (W : (b : Ref sig .tc) → Buf (Elt F) ((c : Thread nD τ).loc b))
    (G : (w : Fin cfg1.W) → Buf (Elt F) ((cfg1.win w).arr.view.loc (c : Thread nD τ)))
    (h0 : G 0 = W main_v4) (h1 : G 1 = W main_v4) (h2 : G 2 = W main_v4) (h3 : G 3 = W main_v5) :
    (Pipeline.arrBufs spec1 c W : sProp 𝕄) ⊣⊢ (dat1 V c).arrays G := by
  rw [arrBufs1_eq, arrays1_eq, h0, h1, h2, h3]
  constructor
  · iintro ⟨H4, H5⟩
    ihave H4' := (share3 (F := F) (W main_v4)).1 $$ H4
    icases H4' with ⟨Ha, Hb, Hc⟩
    isplitl [Ha]; · iexact Ha
    isplitl [Hb]; · iexact Hb
    isplitl [Hc]; · iexact Hc
    iexact H5
  · iintro ⟨Ha, Hb, Hc, H5⟩
    isplitr [H5]
    · iapply (share3 (F := F) (W main_v4)).2
      isplitl [Ha]; · iexact Ha
      isplitl [Hb]; · iexact Hb
      iexact Hc
    iexact H5

end Cert.KernelIdeal.Hand

end
-- ==== Proof.KI.Body2.lean ====
/- The body half of region 2 (the output projection: a matrix product plus a bias row) of the program's frame, at
   any float model. The region's kernel reads its three input windows whole (a 512x1024 block of the attention
   output, the whole 1024x1024 weight matrix and the whole 1x1024 bias row), and overwrites its output window (a
   512x1024 block) whole with one store whose value is a pure function of the three reads. Hence: at every grid
   point the input staging buffers hold their windows' blocks of the arrays as the region found them, whether or
   not the window was transferred at that point (the weights and the bias are transferred at the first point only,
   and their block indices never move); and after the body the output staging buffer holds that pure function of
   the three input blocks, laid over the whole buffer. These are the data of the pipeline's invariant, and the
   body's Hoare triple against them is the region's body obligation. -/
import proofs.«173827_j18485539242200_2_alg».proof.Proof.Gen.KernelIdeal.Launch
import proofs.«173827_j18485539242200_2_alg».proof.Proof.Gen.KernelIdeal.Skeleton
import proofs.«173827_j18485539242200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer through its whole rectangle -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- Window 3's staging buffer after the body, from the input windows' blocks: its one store, over the whole buffer. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole staging memrefs, the inputs' at read contents x0, x1, x2 and the output's at anything,
    runs to the continuation holding the inputs' as they were and the output's at out2_3 of the inputs'. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's invariant data -/

/-- The data of pipeline 2 on core c: the arrays as the region finds them; after the body at point t each
    input's buffer at its block and the output's at out2_3 of the input blocks; the invariant that of a body
    touching nothing else; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- The left operand's staging buffer holds the window's block at every point. The body leaves the block where it
    found it, and a point that does not transfer the window has the block index of the point before: so, transferred
    or not, the buffer holds what a transfer at this point would have brought. -/
theorem before2_0 (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) keep t d]
  unfold Dat.fetched Dat.blockOf iblk2; rw [A_eq2]; try rfl

/-- The weights' staging buffer holds the whole weight matrix at every point: it is transferred at the first point
    only, its block index is constant, and the body never writes it. -/
theorem before2_1 (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) keep t d]
  unfold Dat.fetched Dat.blockOf iblk2; rw [A_eq2]; try rfl

/-- The bias's staging buffer holds the whole bias row at every point, for the same reason. -/
theorem before2_2 (c : Dev nD) (t : Fin cfg2.N) (d) : (dat2 V c).before 2 t d = iblk2 V c 2 t := by
  have keep : ∀ s, (cfg2.win 2).cut (cfg2.grid.coords s) ((dat2 V c).after 2 s) = (dat2 V c).blockOf 2 s := fun s => by
    rw [after2_2]; unfold Dat.blockOf iblk2; rw [A_eq2]; try rfl
  rw [(dat2 V c).before_in_eq_fetched 2 rfl (fun _ => rfl) (fun _ _ _ => rfl) keep t d]
  unfold Dat.fetched Dat.blockOf iblk2; rw [A_eq2]; try rfl

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/-
  The program's run, region by region. Between two items of the program every unscoped buffer of a core is held whole
  at known contents: the launch memory, then the four host operations' results, then after each region the region's
  output array at what its write-backs leave (the pipeline's fold of the blocks each grid point wrote), every other
  buffer as before. Each region is entered from that state and left at the next: its windows' arrays are taken out of
  the unscoped buffers (region 1's three input windows share one array, dealt to them as three shares), the generator
  register goes into the kernel's invariant and comes back, nothing is owed, and at the end the arrays are put back.
-/
import proofs.«173827_j18485539242200_2_alg».proof.Proof.KI.Body0
import proofs.«173827_j18485539242200_2_alg».proof.Proof.KI.Arrays1
import proofs.«173827_j18485539242200_2_alg».proof.Proof.KI.Body2
import proofs.«173827_j18485539242200_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents: the launch memory after the four host operations. -/
abbrev En0 (c : Dev nD) (b : Ref sig .tc) : Buf (Elt F) ((c : Thread nD τ).loc b) := V1 m c b
/-- What region 0 leaves in the packed projection's array. -/
def arr0 (c : Dev nD) : Buf (Elt F) ((c : Thread nD τ).loc main_v4) := (dat0 (En0 m) c).arrAt 2 cfg0.N
/-- Every unscoped buffer after region 0. -/
abbrev Va2 (c : Dev nD) : Valuation τ sig (Elt F) := Function.update (V1 m c) main_v4 (arr0 m c)
/-- Region 1's entry contents. -/
abbrev En1 (c : Dev nD) (b : Ref sig .tc) : Buf (Elt F) ((c : Thread nD τ).loc b) := Va2 m c b
/-- What region 1 leaves in the attention output's array. -/
def arr1 (c : Dev nD) : Buf (Elt F) ((c : Thread nD τ).loc main_v5) := (dat1 (En1 m) c).arrAt 3 cfg1.N
/-- Every unscoped buffer after region 1. -/
abbrev Va3 (c : Dev nD) : Valuation τ sig (Elt F) := Function.update (Va2 m c) main_v5 (arr1 m c)
/-- Region 2's entry contents. -/
abbrev En2 (c : Dev nD) (b : Ref sig .tc) : Buf (Elt F) ((c : Thread nD τ).loc b) := Va3 m c b
/-- What region 2 leaves in the result's array. -/
def arr2 (c : Dev nD) : Buf (Elt F) ((c : Thread nD τ).loc main_v6) := (dat2 (En2 m) c).arrAt 3 cfg2.N
/-- Every unscoped buffer after region 2. -/
abbrev Va4 (c : Dev nD) : Valuation τ sig (Elt F) := Function.update (Va3 m c) main_v6 (arr2 m c)

/-- What the regions leave, as the family the generated boundary contents are written over. -/
def outs : Outs (F := F) := fun J r c =>
  match J with
  | 2 => Va2 m c r
  | 3 => Va3 m c r
  | 4 => Va4 m c r
  | _ => V0 m c r

theorem V2_eq (c : Dev nD) : V2 m (outs m) c = Va2 m c := by
  show Function.update (V1 m c) main_v4 (Function.update (V1 m c) main_v4 (arr0 m c) main_v4) = _
  rw [Function.update_self]
theorem V3_eq (c : Dev nD) : V3 m (outs m) c = Va3 m c := by
  show Function.update (V2 m (outs m) c) main_v5 (Function.update (Va2 m c) main_v5 (arr1 m c) main_v5) = _
  rw [Function.update_self, V2_eq]
theorem V4_eq (c : Dev nD) : V4 m (outs m) c = Va4 m c := by
  show Function.update (V3 m (outs m) c) main_v6 (Function.update (Va3 m c) main_v6 (arr2 m c) main_v6) = _
  rw [Function.update_self, V3_eq]

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers a core holds, through every item, its generator register at some state and owes nothing. -/
abbrev R (c : Dev nD) : sProp 𝕄 := iprop((∃ r, prngReg c r) ∗ ∃ W, owes (c : Thread nD τ) (0 : CellTallies nD τ sig Unit) W)

/-! ## What each region leaves in each of its arrays, against the next boundary's contents -/

theorem hF0 (c : Dev nD) : ∀ w : Fin cfg0.W, (dat0 (En0 m) c).arrAt w cfg0.N = V2 m (outs m) c (Pipeline.arrRef spec0 w)
  | ⟨0, _⟩ => ((dat0 (En0 m) c).arrAt_in 0 rfl _).trans ((A_eq0 (En0 m) c 0).trans (V2_of m (outs m) c main_v0 (by decide)).symm)
  | ⟨1, _⟩ => ((dat0 (En0 m) c).arrAt_in 1 rfl _).trans ((A_eq0 (En0 m) c 1).trans (V2_of m (outs m) c main_v1 (by decide)).symm)
  | ⟨2, _⟩ => by rw [V2_eq]; exact (Function.update_self (Proc.devRef .tc main_v4 : DevRef τ sig) (arr0 m c) (V1 m c)).symm
theorem hrest0 (c : Dev nD) (b : Ref sig .tc) (hb : b ∉ Finset.univ.image (Pipeline.arrRef spec0)) : V2 m (outs m) c b = En0 m c b :=
  V2_of m (outs m) c b (fun h => hb (by rw [List.mem_singleton.mp h]; decide))

theorem hF1 (c : Dev nD) : ∀ w : Fin cfg1.W, (dat1 (En1 m) c).arrAt w cfg1.N = V3 m (outs m) c (Pipeline.arrRef spec1 w)
  | ⟨0, _⟩ => ((dat1 (En1 m) c).arrAt_in 0 rfl _).trans ((A_eq1 (En1 m) c 0).trans (by rw [V3_eq]; exact (Function.update_of_ne (StableHlo.devRef_ne_of_ne (by decide)) _ _).symm))
  | ⟨1, _⟩ => ((dat1 (En1 m) c).arrAt_in 1 rfl _).trans ((A_eq1 (En1 m) c 1).trans (by rw [V3_eq]; exact (Function.update_of_ne (StableHlo.devRef_ne_of_ne (by decide)) _ _).symm))
  | ⟨2, _⟩ => ((dat1 (En1 m) c).arrAt_in 2 rfl _).trans ((A_eq1 (En1 m) c 2).trans (by rw [V3_eq]; exact (Function.update_of_ne (StableHlo.devRef_ne_of_ne (by decide)) _ _).symm))
  | ⟨3, _⟩ => by rw [V3_eq]; exact (Function.update_self (Proc.devRef .tc main_v5 : DevRef τ sig) (arr1 m c) (Va2 m c)).symm
theorem hrest1 (c : Dev nD) (b : Ref sig .tc) (hb : b ∉ Finset.univ.image (Pipeline.arrRef spec1)) : V3 m (outs m) c b = En1 m c b := by
  rw [V3_eq]
  exact Function.update_of_ne (StableHlo.devRef_ne_of_ne (fun h => hb (by rw [h]; decide))) _ _

theorem hF2 (c : Dev nD) : ∀ w : Fin cfg2.W, (dat2 (En2 m) c).arrAt w cfg2.N = V4 m (outs m) c (Pipeline.arrRef spec2 w)
  | ⟨0, _⟩ => ((dat2 (En2 m) c).arrAt_in 0 rfl _).trans ((A_eq2 (En2 m) c 0).trans (by rw [V4_eq]; exact (Function.update_of_ne (StableHlo.devRef_ne_of_ne (by decide)) _ _).symm))
  | ⟨1, _⟩ => ((dat2 (En2 m) c).arrAt_in 1 rfl _).trans ((A_eq2 (En2 m) c 1).trans (by rw [V4_eq]; exact (Function.update_of_ne (StableHlo.devRef_ne_of_ne (by decide)) _ _).symm))
  | ⟨2, _⟩ => ((dat2 (En2 m) c).arrAt_in 2 rfl _).trans ((A_eq2 (En2 m) c 2).trans (by rw [V4_eq]; exact (Function.update_of_ne (StableHlo.devRef_ne_of_ne (by decide)) _ _).symm))
  | ⟨3, _⟩ => by rw [V4_eq]; exact (Function.update_self (Proc.devRef .tc main_v6 : DevRef τ sig) (arr2 m c) (Va3 m c)).symm
theorem hrest2 (c : Dev nD) (b : Ref sig .tc) (hb : b ∉ Finset.univ.image (Pipeline.arrRef spec2)) : V4 m (outs m) c b = En2 m c b := by
  rw [V4_eq]
  exact Function.update_of_ne (StableHlo.devRef_ne_of_ne (fun h => hb (by rw [h]; decide))) _ _

/-! ## Taking a region's arrays out of the unscoped buffers, and putting them back -/

set_option backward.isDefEq.respectTransparency.types false in
theorem entry0 (c : Dev nD) : (StableHlo.held (c : Thread nD τ) (Pipeline.ucRefs τ sig) (V1 m c) : sProp 𝕄)
    ⊢ iprop((pdats m 0 c).arrays ((pdats m 0 c).arrAt · 0) ∗ Pipeline.unscopedRest spec0 c (En0 m c)) := by
  have h := Pipeline.arrays_of_unscopedBufs (p := 0) (pcfgs (F := F)) adm (pdats m) launch0.win launch0.arr_whole c
    ((pdats m 0 c).share_full fun _ => rfl) (En0 m c) fun _ => rfl
  rw [Pipeline.unscopedBufs_held] at h
  exact h
set_option backward.isDefEq.respectTransparency.types false in
theorem exit0 (c : Dev nD) : iprop((pdats m 0 c).arrays ((pdats m 0 c).arrAt · cfg0.N) ∗ Pipeline.unscopedRest spec0 c (En0 m c))
    ⊢ (StableHlo.held (c : Thread nD τ) (Pipeline.ucRefs τ sig) (V2 m (outs m) c) : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (En0 m c) (fun b => V2 m (outs m) c b) ((pdats m 0 c).arrAt · cfg0.N) (hF0 m c) (hrest0 m c)
  rw [Pipeline.unscopedBufs_held] at h
  exact h

set_option backward.isDefEq.respectTransparency.types false in
theorem entry2 (c : Dev nD) : (StableHlo.held (c : Thread nD τ) (Pipeline.ucRefs τ sig) (V3 m (outs m) c) : sProp 𝕄)
    ⊢ iprop((pdats m 2 c).arrays ((pdats m 2 c).arrAt · 0) ∗ Pipeline.unscopedRest spec2 c (En2 m c)) := by
  have h := Pipeline.arrays_of_unscopedBufs (p := 2) (pcfgs (F := F)) adm (pdats m) launch2.win launch2.arr_whole c
    ((pdats m 2 c).share_full fun _ => rfl) (En2 m c) fun _ => rfl
  rw [Pipeline.unscopedBufs_held] at h
  rw [V3_eq]
  exact h
set_option backward.isDefEq.respectTransparency.types false in
theorem exit2 (c : Dev nD) : iprop((pdats m 2 c).arrays ((pdats m 2 c).arrAt · cfg2.N) ∗ Pipeline.unscopedRest spec2 c (En2 m c))
    ⊢ (StableHlo.held (c : Thread nD τ) (Pipeline.ucRefs τ sig) (V4 m (outs m) c) : sProp 𝕄) := by
  have h := Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (En2 m c) (fun b => V4 m (outs m) c b) ((pdats m 2 c).arrAt · cfg2.N) (hF2 m c) (hrest2 m c)
  rw [Pipeline.unscopedBufs_held] at h
  exact h

set_option backward.isDefEq.respectTransparency.types false in
/-- Region 1's entry: the unscoped buffers are the two buffers behind its windows and the rest; the packed projection's
    buffer is dealt to the three input windows as three shares. -/
theorem entry1 (c : Dev nD) : (StableHlo.held (c : Thread nD τ) (Pipeline.ucRefs τ sig) (V2 m (outs m) c) : sProp 𝕄)
    ⊢ iprop((dat1 (En1 m) c).arrays (fun w => (dat1 (En1 m) c).arrAt w 0) ∗ Pipeline.unscopedRest spec1 c (En1 m c)) := by
  rw [V2_eq, ← Pipeline.unscopedBufs_held, Pipeline.unscopedBufs_split₀ (Pipeline.pin (pcfgs (F := F)) adm) 1 winFacts₀1.arr_unscoped c (En1 m c)]
  have key := (arrays1_iff (En1 m) c (En1 m c) (fun w => (dat1 (En1 m) c).arrAt w 0) rfl rfl rfl rfl).1
  exact sep_mono key .rfl
set_option backward.isDefEq.respectTransparency.types false in
/-- Region 1's exit: the three shares, still at the entry contents, compose back to the whole buffer; the output's
    buffer is at what the pipeline leaves. -/
theorem exit1 (c : Dev nD) : iprop((dat1 (En1 m) c).arrays (fun w => (dat1 (En1 m) c).arrAt w cfg1.N) ∗ Pipeline.unscopedRest spec1 c (En1 m c))
    ⊢ (StableHlo.held (c : Thread nD τ) (Pipeline.ucRefs τ sig) (V3 m (outs m) c) : sProp 𝕄) := by
  rw [← Pipeline.unscopedBufs_held, Pipeline.unscopedBufs_split₀ (Pipeline.pin (pcfgs (F := F)) adm) 1 winFacts₀1.arr_unscoped c (fun b => V3 m (outs m) c b)]
  have key := (arrays1_iff (En1 m) c (fun b => V3 m (outs m) c b) (fun w => (dat1 (En1 m) c).arrAt w cfg1.N) (hF1 m c 0) (hF1 m c 1) (hF1 m c 2) (hF1 m c 3)).2
  refine sep_mono key (Entails.of_eq ?_)
  unfold Pipeline.unscopedRest
  exact bigSep_congr fun b hb => by dsimp only; rw [hrest1 m c b (Finset.mem_sdiff.mp hb).2]

set_option backward.isDefEq.respectTransparency.types false in
/-- Region 0 as a segment: entered from every unscoped buffer at the contents before it, left at the contents after it.
    At the entry its windows' arrays are taken out of the unscoped buffers and the generator register goes into the
    kernel's invariant; at the exit the register comes back and the arrays, at what the pipeline leaves, go back among
    the unscoped buffers. The kernel has no semaphore of its own and owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after it.
    At the entry its windows' arrays are taken out of the unscoped buffers and the generator register goes into the
    kernel's invariant; at the exit the register comes back and the arrays, at what the pipeline leaves, go back among
    the unscoped buffers. The kernel has no semaphore of its own and owes nothing. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N) ∗ Pipeline.unscopedRest spec1 c (En1 m c))
        ⊢ (StableHlo.held (c : Thread nD τ) (Pipeline.ucRefs τ sig) (V3 m (outs m) c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents before it, left at the contents after it.
    At the entry its windows' arrays are taken out of the unscoped buffers and the generator register goes into the
    kernel's invariant; at the exit the register comes back and the arrays, at what the pipeline leaves, go back among
    the unscoped buffers. The kernel has no semaphore of its own and owes nothing. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := entry2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's, at every region's staging cells. -/
abbrev u₀ : UR sig nD τ := initOf (Pipeline.cells cfgs cellOf_inj) (Pipeline.launchToks cfgs cellOf_inj)

set_option backward.isDefEq.respectTransparency.types false in
/-- THE RUN. From any memory with zero counters every weakly fair execution of the program terminates without a
    fault, and in every final memory each unscoped buffer of each core holds the last boundary's contents: the
    launch contents, the host operations' results, and each region's output array at what its pipeline leaves. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := u₀)
    (hu₀ := by
      iintro Hu; imodintro
      isplitl [Hu]
      · iapply (show (ownU u₀ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m (outs m) c))
    (hch := fun c => ⟨.rfl, .rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨Hh, HSI⟩
      unfold StableHlo.held
      imodintro
      iapply (pointsTo_read_all (Pipeline.ucRefs τ sig) (fun b => (((c : Thread nD τ)).1, b)) (V5 m (outs m) c) s')
      isplitl [Hh] <;> iassumption)
    (hQ := fun _ h => h)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program terminates without a fault and every argument array ends as launched (no host operation
    writes one, no region's output window is on one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V5_main_arg0 m (outs m) c),
     (h c _ (mem_uc main_arg1 (by decide))).trans (V5_main_arg1 m (outs m) c),
     (h c _ (mem_uc main_arg2 (by decide))).trans (V5_main_arg2 m (outs m) c),
     (h c _ (mem_uc main_arg3 (by decide))).trans (V5_main_arg3 m (outs m) c)⟩) (run_all m ρ)

end Cert.KernelIdeal.Hand

end
-- ==== Proof.Spec.lean ====
/-
  The function both programs compute, stated once over the extended reals, index by index.

  Inputs: x[b, t, c] (4 x 2048 x 1024), a packed projection matrix w[o, c] (3072 x 1024: the rows
  j*1024 + h*64 + d hold query (j = 0), key (j = 1) and value (j = 2) of head h, coordinate d), an output
  projection wo[o, c] (1024 x 1024) and a bias[o].
    proj  b t o      = sum_c x[b,t,c] * w[o,c]
    score b h q k    = (sum_d proj b q (0,h,d) * proj b k (1,h,d)) * 1/8
    smax  b h q      = max_k score b h q k                 (the fold of max from -inf)
    ex    b h q k    = exp (score b h q k - smax b h q)
    prob  b h q k    = ex b h q k / sum_k' ex b h q k'
    attn  b t (h,d)  = sum_k prob b h t k * proj b k (2,h,d)
    G     b t o      = (sum_c attn b t c * wo[o,c]) + bias[o]          with c = h*64 + d
  Sums are finite sums in the extended reals (a commutative monoid), so their order is immaterial.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 1024]⟩
abbrev SW : Shape := ⟨2, ![3072, 1024]⟩
abbrev SWo : Shape := ⟨2, ![1024, 1024]⟩
abbrev SB : Shape := ⟨1, ![1024]⟩

/-- Column j*1024 + h*64 + d of the packed projection: part j (query, key, value), head h, coordinate d. -/
def col3 (j : Fin 3) (h : Fin 16) (d : Fin 64) : Fin 3072 := ⟨j.val * 1024 + h.val * 64 + d.val, by omega⟩

/-- The head of a model column c = h*64 + d, and its coordinate inside the head. -/
def headOf (c : Fin 1024) : Fin 16 := ⟨c.val / 64, by omega⟩
def coordOf (c : Fin 1024) : Fin 64 := ⟨c.val % 64, Nat.mod_lt _ (by decide)⟩

/-- The scale 1/8 as both programs spell it: the f32 pattern of 0.125. -/
abbrev scale : EReal := Ideal.ofBits .f32 0x3E000000#32

variable (x : SX.Idx → EReal) (w : SW.Idx → EReal) (wo : SWo.Idx → EReal) (bias : SB.Idx → EReal)

/-- The packed projection of token (b, t): entry o is the inner product of x[b,t,:] with row o of w. -/
def proj (b : Fin 4) (t : Fin 2048) (o : Fin 3072) : EReal :=
  ∑ c : Fin 1024, x (ix3 b t c) * w (ix2 o c)

/-- The scaled score of query position q against key position k in head h of batch b. -/
def score (b : Fin 4) (h : Fin 16) (q k : Fin 2048) : EReal :=
  (∑ d : Fin 64, proj x w b q (col3 0 h d) * proj x w b k (col3 1 h d)) * scale

/-- The row maximum of the scores: the fold of max over the key positions, from -inf. -/
def smax (b : Fin 4) (h : Fin 16) (q : Fin 2048) : EReal :=
  (Finset.univ : Finset (Fin 2048)).fold max (⊥ : EReal) (fun k => score x w b h q k)

/-- The shifted exponential of a score. -/
def ex (b : Fin 4) (h : Fin 16) (q k : Fin 2048) : EReal :=
  Ideal.exp (score x w b h q k - smax x w b h q)

/-- The softmax weight: the shifted exponential over the row's sum of them. -/
def prob (b : Fin 4) (h : Fin 16) (q k : Fin 2048) : EReal :=
  Ideal.div (ex x w b h q k) (∑ k' : Fin 2048, ex x w b h q k')

/-- The attention output of token (b, t) at head h, coordinate d. -/
def attn (b : Fin 4) (t : Fin 2048) (h : Fin 16) (d : Fin 64) : EReal :=
  ∑ k : Fin 2048, prob x w b h t k * proj x w b k (col3 2 h d)

/-- The result: the output projection of the attention output, plus the bias. -/
def out (b : Fin 4) (t : Fin 2048) (o : Fin 1024) : EReal :=
  (∑ c : Fin 1024, attn x w b t (headOf c) (coordOf c) * wo (ix2 o c)) + bias (ix1 o)

/-- The result as an array of the input's shape. -/
def G : SX.Idx → EReal := fun i => out x w wo bias (i 0) (i 1) (i 2)

end Cert.Spec

end
-- ==== Proof.Ref.Proj.lean ====
/-
  The reference's packed projection and its three parts, read at coordinates.

  The first contraction gives, at (b, t, o), the inner product of x[b,t,:] with row o of the packed matrix:
  the specification's proj. The reshape to [4, 2048, 3, 16, 64], the transpose to [3, 4, 16, 2048, 64],
  the slice of part j and the reshape that drops the unit axis only move entries: the part-j array at
  (b, h, t, d) is the projection at (b, t, j*1024 + h*64 + d). Each layout step is a statement about
  row-major positions, checked by linear arithmetic with division by literals.
-/
import proofs.«173827_j18485539242200_2_alg».proof.Proof.Spec
import proofs.«173827_j18485539242200_2_alg».proof.Proof.Gen.ReferenceIdeal.Read

noncomputable section

namespace Cert.ReferenceIdeal.RefValue

open Cert.ReferenceIdeal Cert.ReferenceIdeal.Read Idealize.ShloMosaic Idealize.ShloMosaic.ValueIdx Cert.Spec

variable (x : FVec Ideal S4x2048x1024 .f32) (w : FVec Ideal S3072x1024 .f32)

/-- The contraction's left index at (b, t, o), k is (b, t, k). -/
theorem lidx_v0 (b : Fin 4) (t : Fin 2048) (o : Fin 3072) (k : Fin 1024) :
    lidx_main_v0 (ix3 b t o) k = ix3 b t k :=
  funext fun a => Fin.ext (by match a with | ⟨0, _⟩ => rfl | ⟨1, _⟩ => rfl | ⟨2, _⟩ => rfl)

/-- The contraction's right index at (b, t, o), k is (o, k). -/
theorem ridx_v0 (b : Fin 4) (t : Fin 2048) (o : Fin 3072) (k : Fin 1024) :
    ridx_main_v0 (ix3 b t o) k = ix2 o k :=
  funext fun a => Fin.ext (by match a with | ⟨0, _⟩ => rfl | ⟨1, _⟩ => rfl)

/-- The packed projection at (b, t, o). -/
theorem v0_at (b : Fin 4) (t : Fin 2048) (o : Fin 3072) :
    val_main_v0 (F := Ideal) x w (ix3 b t o) = proj x w b t o := by
  rw [val_main_v0_apply]
  unfold proj
  refine Finset.sum_congr rfl fun k _ => ?_
  rw [lidx_v0, ridx_v0]

/-- Dropping the leading unit axis: (b, h, t, d) comes from (0, b, h, t, d). -/
theorem idx_v4 (b : Fin 4) (h : Fin 16) (t : Fin 2048) (d : Fin 64) :
    idx_main_v4 (ix4 b h t d) = ix5 (0 : Fin 1) b h t d :=
  funext fun a => Fin.ext (by
    have hb := b.isLt; have hh := h.isLt; have ht := t.isLt; have hd := d.isLt
    match a with
    | ⟨0, _⟩ => rfl
    | ⟨1, _⟩ => show (((b.val * 16 + h.val) * 2048 + t.val) * 64 + d.val) / 2097152 % 4 = b.val; omega
    | ⟨2, _⟩ => show (((b.val * 16 + h.val) * 2048 + t.val) * 64 + d.val) / 131072 % 16 = h.val; omega
    | ⟨3, _⟩ => show (((b.val * 16 + h.val) * 2048 + t.val) * 64 + d.val) / 64 % 2048 = t.val; omega
    | ⟨4, _⟩ => show (((b.val * 16 + h.val) * 2048 + t.val) * 64 + d.val) % 64 = d.val; omega)

theorem idx_v6 (b : Fin 4) (h : Fin 16) (t : Fin 2048) (d : Fin 64) :
    idx_main_v6 (ix4 b h t d) = ix5 (0 : Fin 1) b h t d := idx_v4 b h t d

theorem idx_v8 (b : Fin 4) (h : Fin 16) (t : Fin 2048) (d : Fin 64) :
    idx_main_v8 (ix4 b h t d) = ix5 (0 : Fin 1) b h t d := idx_v4 b h t d

/-- The slice of part 0 reads part 0. -/
theorem idx_v3 (b : Fin 4) (h : Fin 16) (t : Fin 2048) (d : Fin 64) :
    idx_main_v3 (ix5 (0 : Fin 1) b h t d) = ix5 (0 : Fin 3) b h t d :=
  funext fun a => Fin.ext (by
    match a with | ⟨0, _⟩ => rfl | ⟨1, _⟩ => rfl | ⟨2, _⟩ => rfl | ⟨3, _⟩ => rfl | ⟨4, _⟩ => rfl)

/-- The slice of part 1 reads part 1. -/
theorem idx_v5 (b : Fin 4) (h : Fin 16) (t : Fin 2048) (d : Fin 64) :
    idx_main_v5 (ix5 (0 : Fin 1) b h t d) = ix5 (1 : Fin 3) b h t d :=
  funext fun a => Fin.ext (by
    match a with | ⟨0, _⟩ => rfl | ⟨1, _⟩ => rfl | ⟨2, _⟩ => rfl | ⟨3, _⟩ => rfl | ⟨4, _⟩ => rfl)

/-- The slice of part 2 reads part 2. -/
theorem idx_v7 (b : Fin 4) (h : Fin 16) (t : Fin 2048) (d : Fin 64) :
    idx_main_v7 (ix5 (0 : Fin 1) b h t d) = ix5 (2 : Fin 3) b h t d :=
  funext fun a => Fin.ext (by
    match a with | ⟨0, _⟩ => rfl | ⟨1, _⟩ => rfl | ⟨2, _⟩ => rfl | ⟨3, _⟩ => rfl | ⟨4, _⟩ => rfl)

/-- The transpose: (j, b, h, t, d) comes from (b, t, j, h, d). -/
theorem idx_v2 (j : Fin 3) (b : Fin 4) (h : Fin 16) (t : Fin 2048) (d : Fin 64) :
    idx_main_v2 (ix5 j b h t d) = ix5 b t j h d :=
  funext fun a => Fin.ext (by
    match a with | ⟨0, _⟩ => rfl | ⟨1, _⟩ => rfl | ⟨2, _⟩ => rfl | ⟨3, _⟩ => rfl | ⟨4, _⟩ => rfl)

/-- The reshape: (b, t, j, h, d) comes from (b, t, j*1024 + h*64 + d). -/
theorem idx_v1 (j : Fin 3) (b : Fin 4) (h : Fin 16) (t : Fin 2048) (d : Fin 64) :
    idx_main_v1 (ix5 b t j h d) = ix3 b t (col3 j h d) :=
  funext fun a => Fin.ext (by
    have hj := j.isLt; have hb := b.isLt; have hh := h.isLt; have ht := t.isLt; have hd := d.isLt
    match a with
    | ⟨0, _⟩ => show ((((b.val * 2048 + t.val) * 3 + j.val) * 16 + h.val) * 64 + d.val) / 6291456 = b.val; omega
    | ⟨1, _⟩ => show ((((b.val * 2048 + t.val) * 3 + j.val) * 16 + h.val) * 64 + d.val) / 3072 % 2048 = t.val; omega
    | ⟨2, _⟩ => show ((((b.val * 2048 + t.val) * 3 + j.val) * 16 + h.val) * 64 + d.val) % 3072 = j.val * 1024 + h.val * 64 + d.val; omega)

/-- Part j of the transposed projection at (j, b, h, t, d). -/
theorem v2_at (j : Fin 3) (b : Fin 4) (h : Fin 16) (t : Fin 2048) (d : Fin 64) :
    val_main_v2 (F := Ideal) x w (ix5 j b h t d) = proj x w b t (col3 j h d) := by
  rw [val_main_v2_apply, idx_v2, val_main_v1_apply, idx_v1, v0_at]

/-- The query array at (b, h, t, d). -/
theorem v4_at (b : Fin 4) (h : Fin 16) (t : Fin 2048) (d : Fin 64) :
    val_main_v4 (F := Ideal) x w (ix4 b h t d) = proj x w b t (col3 0 h d) := by
  rw [val_main_v4_apply, idx_v4, val_main_v3_apply, idx_v3, v2_at]

/-- The key array at (b, h, t, d). -/
theorem v6_at (b : Fin 4) (h : Fin 16) (t : Fin 2048) (d : Fin 64) :
    val_main_v6 (F := Ideal) x w (ix4 b h t d) = proj x w b t (col3 1 h d) := by
  rw [val_main_v6_apply, idx_v6, val_main_v5_apply, idx_v5, v2_at]

/-- The value array at (b, h, t, d). -/
theorem v8_at (b : Fin 4) (h : Fin 16) (t : Fin 2048) (d : Fin 64) :
    val_main_v8 (F := Ideal) x w (ix4 b h t d) = proj x w b t (col3 2 h d) := by
  rw [val_main_v8_apply, idx_v8, val_main_v7_apply, idx_v7, v2_at]

end Cert.ReferenceIdeal.RefValue

end
-- ==== Proof.Ref.Score.lean ====
/-
  The reference's scaled scores and their row maximum, read at coordinates.

  The second contraction pairs the query row (b, h, q, :) with the key row (b, h, k, :) over the 64 head
  coordinates; multiplied by the broadcast scale 1/8 it is the specification's score. The maximum over the
  key axis is a fold of max from the initial value -inf, which is the bottom of the extended reals, over the
  2048 key positions; the extra maximum with a broadcast -inf changes nothing.
-/
import proofs.«173827_j18485539242200_2_alg».proof.Proof.Ref.Proj

noncomputable section

namespace Cert.ReferenceIdeal.RefValue

open Cert.ReferenceIdeal Cert.ReferenceIdeal.Read Idealize.ShloMosaic Idealize.ShloMosaic.ValueIdx Cert.Spec

variable (x : FVec Ideal S4x2048x1024 .f32) (w : FVec Ideal S3072x1024 .f32)

/-- The score contraction's left index at (b, h, q, k), d is the query entry (b, h, q, d). -/
theorem lidx_v9 (b : Fin 4) (h : Fin 16) (q k : Fin 2048) (d : Fin 64) :
    lidx_main_v9 (ix4 b h q k) d = ix4 b h q d :=
  funext fun a => Fin.ext (by match a with | ⟨0, _⟩ => rfl | ⟨1, _⟩ => rfl | ⟨2, _⟩ => rfl | ⟨3, _⟩ => rfl)

/-- The score contraction's right index at (b, h, q, k), d is the key entry (b, h, k, d). -/
theorem ridx_v9 (b : Fin 4) (h : Fin 16) (q k : Fin 2048) (d : Fin 64) :
    ridx_main_v9 (ix4 b h q k) d = ix4 b h k d :=
  funext fun a => Fin.ext (by match a with | ⟨0, _⟩ => rfl | ⟨1, _⟩ => rfl | ⟨2, _⟩ => rfl | ⟨3, _⟩ => rfl)

/-- The unscaled score at (b, h, q, k). -/
theorem v9_at (b : Fin 4) (h : Fin 16) (q k : Fin 2048) :
    val_main_v9 (F := Ideal) x w (ix4 b h q k)
      = ∑ d : Fin 64, proj x w b q (col3 0 h d) * proj x w b k (col3 1 h d) := by
  rw [val_main_v9_apply]
  refine Finset.sum_congr rfl fun d _ => ?_
  rw [lidx_v9, ridx_v9, v4_at, v6_at]

/-- The broadcast scale is the scale everywhere. -/
theorem v10_at (i : S4x16x2048x2048.Idx) : val_main_v10 (F := Ideal) i = scale := by
  rw [val_main_v10_apply, val_main_cst_apply]
  rfl

/-- The scaled score at (b, h, q, k). -/
theorem v11_at (b : Fin 4) (h : Fin 16) (q k : Fin 2048) :
    val_main_v11 (F := Ideal) x w (ix4 b h q k) = score x w b h q k := by
  rw [val_main_v11_apply, v9_at, v10_at]
  rfl

/-- Minus infinity, as the programs spell it, is the bottom of the extended reals. -/
theorem ofBits_neg_inf : Ideal.ofBits .f32 0xFF800000#32 = (⊥ : EReal) := by
  simp [Ideal.ofBits, Ideal.ieee]

/-- The key axis is the one dropped by the reduction. -/
theorem reduces_keys : S4x16x2048x2048.Reduces [3] S4x16x2048 := by decide

/-- The row index (b, h, q) with key position k put back is (b, h, q, k). -/
theorem lift_keys (b : Fin 4) (h : Fin 16) (q : Fin 2048) (k : Fin (S4x16x2048x2048.size 3)) :
    reduces_keys.lift (ix3 b h q) k = ix4 b h q (⟨k.val, k.isLt⟩ : Fin 2048) := by
  funext c; apply Fin.ext
  fin_cases c <;> rfl

/-- A maximum over the key axis, from any initial value, is the fold of max over the 2048 key positions. -/
theorem rowmax_at (y : FVec Ideal S4x16x2048x2048 .f32) (init : FVec Ideal S_ .f32)
    (h' : S4x16x2048x2048.ReducesTo [3] S4x16x2048) (hu : 0 < S_.numel) (b : Fin 4) (h : Fin 16) (q : Fin 2048) :
    Host.reduce FloatOps.maximumf y init h' hu (ix3 b h q)
      = (Finset.univ : Finset (Fin 2048)).fold max (init (Shape.Idx.first hu)) (fun k => y (ix4 b h q k)) := by
  rw [Host.reduce_eq_fold_single FloatOps.maximumf y init h' reduces_keys hu]
  have hf : (y ∘ reduces_keys.lift (ix3 b h q)) = fun k : Fin 2048 => y (ix4 b h q k) :=
    funext fun k => congrArg y (lift_keys b h q k)
  exact congrArg (fun f => Finset.fold max (init (Shape.Idx.first hu)) f (Finset.univ : Finset (Fin 2048))) hf

/-- The row maximum of the scores at (b, h, q), before the maximum with the broadcast -inf. -/
theorem v12_at (b : Fin 4) (h : Fin 16) (q : Fin 2048) :
    val_main_v12 (F := Ideal) x w (ix3 b h q) = smax x w b h q := by
  unfold val_main_v12
  refine (rowmax_at (val_main_v11 (F := Ideal) x w) (val_main_cst_0 (F := Ideal)) _ _ b h q).trans ?_
  rw [val_main_cst_0_apply, Ideal.ofBits_def, ofBits_neg_inf]
  unfold smax
  exact congrArg (fun f => Finset.fold max (⊥ : EReal) f (Finset.univ : Finset (Fin 2048)))
    (funext fun k => v11_at x w b h q k)

/-- The row maximum at (b, h, q). -/
theorem v14_at (b : Fin 4) (h : Fin 16) (q : Fin 2048) :
    val_main_v14 (F := Ideal) x w (ix3 b h q) = smax x w b h q := by
  rw [val_main_v14_apply, val_main_v13_apply, val_main_cst_1_apply, v12_at]
  show max (Ideal.ofBits .f32 0xFF800000#32) (smax x w b h q) = smax x w b h q
  rw [ofBits_neg_inf]
  exact max_bot_left _

end Cert.ReferenceIdeal.RefValue

end
-- ==== Proof.Ref.Soft.lean ====
/-
  The reference's softmax weights, read at coordinates.

  The row maximum is broadcast back along the key axis (through a unit axis), subtracted from the score and
  exponentiated: the specification's shifted exponential. The sum over the key axis starts from the zero
  word, which is the extended real 0, so it is the plain sum of the 2048 shifted exponentials; broadcast back
  the same way and divided into the exponential it gives the softmax weight.
-/
import proofs.«173827_j18485539242200_2_alg».proof.Proof.Ref.Score

noncomputable section

namespace Cert.ReferenceIdeal.RefValue

open Cert.ReferenceIdeal Cert.ReferenceIdeal.Read Idealize.ShloMosaic Idealize.ShloMosaic.ValueIdx Cert.Spec

variable (x : FVec Ideal S4x2048x1024 .f32) (w : FVec Ideal S3072x1024 .f32)

/-- Broadcasting along the key axis reads the unit column: (b, h, q, k) comes from (b, h, q, 0). -/
theorem idx_v16 (b : Fin 4) (h : Fin 16) (q k : Fin 2048) :
    idx_main_v16 (ix4 b h q k) = ix4 b h q (0 : Fin 1) :=
  funext fun a => Fin.ext (by match a with | ⟨0, _⟩ => rfl | ⟨1, _⟩ => rfl | ⟨2, _⟩ => rfl | ⟨3, _⟩ => rfl)

/-- Adding the unit axis: (b, h, q, 0) comes from (b, h, q). -/
theorem idx_v15 (b : Fin 4) (h : Fin 16) (q : Fin 2048) :
    idx_main_v15 (ix4 b h q (0 : Fin 1)) = ix3 b h q :=
  funext fun a => Fin.ext (by match a with | ⟨0, _⟩ => rfl | ⟨1, _⟩ => rfl | ⟨2, _⟩ => rfl)

theorem idx_v21 (b : Fin 4) (h : Fin 16) (q k : Fin 2048) :
    idx_main_v21 (ix4 b h q k) = ix4 b h q (0 : Fin 1) := idx_v16 b h q k

theorem idx_v20 (b : Fin 4) (h : Fin 16) (q : Fin 2048) :
    idx_main_v20 (ix4 b h q (0 : Fin 1)) = ix3 b h q := idx_v15 b h q

/-- The row maximum broadcast along the keys. -/
theorem v16_at (b : Fin 4) (h : Fin 16) (q k : Fin 2048) :
    val_main_v16 (F := Ideal) x w (ix4 b h q k) = smax x w b h q := by
  rw [val_main_v16_apply, idx_v16, val_main_v15_apply, idx_v15, v14_at]

/-- The shifted exponential at (b, h, q, k). -/
theorem v18_at (b : Fin 4) (h : Fin 16) (q k : Fin 2048) :
    val_main_v18 (F := Ideal) x w (ix4 b h q k) = ex x w b h q k := by
  rw [val_main_v18_apply, val_main_v17_apply, v11_at, v16_at]
  rfl

/-- The summation index at (b, h, q), k is (b, h, q, k). -/
theorem idx_v19 (b : Fin 4) (h : Fin 16) (q k : Fin 2048) :
    idx_main_v19 (ix3 b h q) k = ix4 b h q k :=
  funext fun a => Fin.ext (by match a with | ⟨0, _⟩ => rfl | ⟨1, _⟩ => rfl | ⟨2, _⟩ => rfl | ⟨3, _⟩ => rfl)

/-- The row sum of the shifted exponentials at (b, h, q). -/
theorem v19_at (b : Fin 4) (h : Fin 16) (q : Fin 2048) :
    val_main_v19 (F := Ideal) x w (ix3 b h q) = ∑ k : Fin 2048, ex x w b h q k := by
  rw [val_main_v19_apply, val_main_cst_2_apply]
  have hz : (FloatOps.ofBits (F := Ideal) .f32 0x00000000#32 : EReal) = 0 := Ideal.ofBits_zero_f32
  rw [hz, zero_add]
  refine Finset.sum_congr rfl fun k _ => ?_
  rw [idx_v19, v18_at]

/-- The row sum broadcast along the keys. -/
theorem v21_at (b : Fin 4) (h : Fin 16) (q k : Fin 2048) :
    val_main_v21 (F := Ideal) x w (ix4 b h q k) = ∑ k' : Fin 2048, ex x w b h q k' := by
  rw [val_main_v21_apply, idx_v21, val_main_v20_apply, idx_v20, v19_at]

/-- The softmax weight at (b, h, q, k). -/
theorem v22_at (b : Fin 4) (h : Fin 16) (q k : Fin 2048) :
    val_main_v22 (F := Ideal) x w (ix4 b h q k) = prob x w b h q k := by
  rw [val_main_v22_apply, v18_at, v21_at]
  rfl

end Cert.ReferenceIdeal.RefValue

end
-- ==== Proof.Ref.Attn.lean ====
/-
  The reference's attention output, read at coordinates.

  The third contraction sums, over the key positions, the softmax weight times the value row: at
  (b, h, t, d) it is the specification's attn b t h d. The transpose to [4, 2048, 16, 64] and the reshape to
  [4, 2048, 1024] only move entries: model column c = h*64 + d of token (b, t) holds the entry of head
  c / 64 at coordinate c % 64.
-/
import proofs.«173827_j18485539242200_2_alg».proof.Proof.Ref.Soft

noncomputable section

namespace Cert.ReferenceIdeal.RefValue

open Cert.ReferenceIdeal Cert.ReferenceIdeal.Read Idealize.ShloMosaic Idealize.ShloMosaic.ValueIdx Cert.Spec

variable (x : FVec Ideal S4x2048x1024 .f32) (w : FVec Ideal S3072x1024 .f32)

/-- The attention contraction's left index at (b, h, t, d), k is the weight (b, h, t, k). -/
theorem lidx_v23 (b : Fin 4) (h : Fin 16) (t : Fin 2048) (d : Fin 64) (k : Fin 2048) :
    lidx_main_v23 (ix4 b h t d) k = ix4 b h t k :=
  funext fun a => Fin.ext (by match a with | ⟨0, _⟩ => rfl | ⟨1, _⟩ => rfl | ⟨2, _⟩ => rfl | ⟨3, _⟩ => rfl)

/-- The attention contraction's right index at (b, h, t, d), k is the value entry (b, h, k, d). -/
theorem ridx_v23 (b : Fin 4) (h : Fin 16) (t : Fin 2048) (d : Fin 64) (k : Fin 2048) :
    ridx_main_v23 (ix4 b h t d) k = ix4 b h k d :=
  funext fun a => Fin.ext (by match a with | ⟨0, _⟩ => rfl | ⟨1, _⟩ => rfl | ⟨2, _⟩ => rfl | ⟨3, _⟩ => rfl)

/-- The attention output at (b, h, t, d). -/
theorem v23_at (b : Fin 4) (h : Fin 16) (t : Fin 2048) (d : Fin 64) :
    val_main_v23 (F := Ideal) x w (ix4 b h t d) = attn x w b t h d := by
  rw [val_main_v23_apply]
  unfold attn
  refine Finset.sum_congr rfl fun k _ => ?_
  rw [lidx_v23, ridx_v23, v22_at, v8_at]

/-- The transpose: (b, t, h, d) comes from (b, h, t, d). -/
theorem idx_v24 (b : Fin 4) (t : Fin 2048) (h : Fin 16) (d : Fin 64) :
    idx_main_v24 (ix4 b t h d) = ix4 b h t d :=
  funext fun a => Fin.ext (by match a with | ⟨0, _⟩ => rfl | ⟨1, _⟩ => rfl | ⟨2, _⟩ => rfl | ⟨3, _⟩ => rfl)

/-- The reshape: model column c of token (b, t) comes from head c / 64, coordinate c % 64. -/
theorem idx_v25 (b : Fin 4) (t : Fin 2048) (c : Fin 1024) :
    idx_main_v25 (ix3 b t c) = ix4 b t (headOf c) (coordOf c) :=
  funext fun a => Fin.ext (by
    have hb := b.isLt; have ht := t.isLt; have hc := c.isLt
    match a with
    | ⟨0, _⟩ => show ((b.val * 2048 + t.val) * 1024 + c.val) / 2097152 = b.val; omega
    | ⟨1, _⟩ => show ((b.val * 2048 + t.val) * 1024 + c.val) / 1024 % 2048 = t.val; omega
    | ⟨2, _⟩ => show ((b.val * 2048 + t.val) * 1024 + c.val) / 64 % 16 = c.val / 64; omega
    | ⟨3, _⟩ => show ((b.val * 2048 + t.val) * 1024 + c.val) % 64 = c.val % 64; omega)

/-- The merged attention output at (b, t, c). -/
theorem v25_at (b : Fin 4) (t : Fin 2048) (c : Fin 1024) :
    val_main_v25 (F := Ideal) x w (ix3 b t c) = attn x w b t (headOf c) (coordOf c) := by
  rw [val_main_v25_apply, idx_v25, val_main_v24_apply, idx_v24, v23_at]

end Cert.ReferenceIdeal.RefValue

end
-- ==== Proof.Ref.Out.lean ====
/-
  The reference's result, read at coordinates, is the specification's function.

  The last contraction pairs the merged attention row of token (b, t) with row o of the output projection;
  the bias, broadcast through two unit axes to the result's shape, is added. Every index of the result is
  its three coordinates, so the two arrays are equal.
-/
import proofs.«173827_j18485539242200_2_alg».proof.Proof.Ref.Attn

noncomputable section

namespace Cert.ReferenceIdeal.RefValue

open Cert.ReferenceIdeal Cert.ReferenceIdeal.Read Idealize.ShloMosaic Idealize.ShloMosaic.ValueIdx Cert.Spec

variable (x : FVec Ideal S4x2048x1024 .f32) (w : FVec Ideal S3072x1024 .f32)
  (wo : FVec Ideal S1024x1024 .f32) (bias : FVec Ideal S1024 .f32)

/-- The output contraction's left index at (b, t, o), c is (b, t, c). -/
theorem lidx_v26 (b : Fin 4) (t : Fin 2048) (o c : Fin 1024) :
    lidx_main_v26 (ix3 b t o) c = ix3 b t c :=
  funext fun a => Fin.ext (by match a with | ⟨0, _⟩ => rfl | ⟨1, _⟩ => rfl | ⟨2, _⟩ => rfl)

/-- The output contraction's right index at (b, t, o), c is (o, c). -/
theorem ridx_v26 (b : Fin 4) (t : Fin 2048) (o c : Fin 1024) :
    ridx_main_v26 (ix3 b t o) c = ix2 o c :=
  funext fun a => Fin.ext (by match a with | ⟨0, _⟩ => rfl | ⟨1, _⟩ => rfl)

/-- The output projection at (b, t, o). -/
theorem v26_at (b : Fin 4) (t : Fin 2048) (o : Fin 1024) :
    val_main_v26 (F := Ideal) x w wo (ix3 b t o)
      = ∑ c : Fin 1024, attn x w b t (headOf c) (coordOf c) * wo (ix2 o c) := by
  rw [val_main_v26_apply]
  refine Finset.sum_congr rfl fun c _ => ?_
  rw [lidx_v26, ridx_v26, v25_at]

/-- The bias broadcast to the result's shape reads entry o at (b, t, o). -/
theorem idx_v28 (b : Fin 4) (t : Fin 2048) (o : Fin 1024) :
    idx_main_v27 (idx_main_v28 (ix3 b t o)) = ix1 o :=
  funext fun a => Fin.ext (by match a with | ⟨0, _⟩ => rfl)

theorem v28_at (b : Fin 4) (t : Fin 2048) (o : Fin 1024) :
    val_main_v28 (F := Ideal) bias (ix3 b t o) = bias (ix1 o) := by
  rw [val_main_v28_apply, val_main_v27_apply, idx_v28]

/-- The result at (b, t, o). -/
theorem v29_at (b : Fin 4) (t : Fin 2048) (o : Fin 1024) :
    val_main_v29 (F := Ideal) x w wo bias (ix3 b t o) = out x w wo bias b t o := by
  rw [val_main_v29_apply, v26_at, v28_at]
  rfl

/-- The reference's result array is the specification's. -/
theorem v29_eq : val_main_v29 (F := Ideal) x w wo bias = G x w wo bias := by
  funext i
  rw [eq_ix3 i]
  exact v29_at x w wo bias (i 0) (i 1) (i 2)

end Cert.ReferenceIdeal.RefValue

end
-- ==== Proof.RefValue.lean ====
/-
  The reference's result, read index by index, is the specification's function of the arguments.

  The run of the reference ends with its result array at the composed term of its operations applied to
  the four argument arrays, the arguments unchanged. That term, stage by stage — the packed projection, its
  query, key and value parts, the scaled scores, their row maximum, the shifted exponentials, their row sums,
  the softmax weights, the attention output, the merge of the heads, the output projection and the bias —
  is the specification's G at every index. So every run of the reference ends with G of the arguments.
-/
import proofs.«173827_j18485539242200_2_alg».proof.Defs
import proofs.«173827_j18485539242200_2_alg».proof.Proof.Gen.Pre_finite_inputs
import proofs.«173827_j18485539242200_2_alg».proof.Proof.Ref.Out

noncomputable section

namespace Cert.ReferenceIdeal.RefValue

open Cert.ReferenceIdeal Cert.ReferenceIdeal.Gen Cert.ReferenceIdeal.Read Idealize.ShloMosaic Idealize.ShloMosaic.TcCoe
  Idealize.SL.Sem

/-- The composed term of the reference's operations is the specification's function of the four arguments. -/
theorem result_eq (x : FVec Ideal S4x2048x1024 .f32) (w : FVec Ideal S3072x1024 .f32)
    (wo : FVec Ideal S1024x1024 .f32) (bias : FVec Ideal S1024 .f32) :
    val_main_v29 (F := Ideal) x w wo bias = Cert.Spec.G x w wo bias :=
  v29_eq x w wo bias

/-- Every weakly fair execution of the reference terminates with its result at the specification's function of
    the argument arrays it was started with, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v29_eq m c).trans (result_eq _ _ _ _)), (h c).2⟩)
    (Cert.ReferenceIdeal.Value.run (F := Ideal) m ρ)

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.KI.Value0.lean ====
/- The value of region 0 (the first matrix product) over the extended reals: the array its output window's
   write-backs leave is, index by index, the inner product of a row of the activations with a row of the weights.
   First the body's stored value at an index of the block: the two changes of float format are the identity, and the
   matrix product into a zero accumulator is the plain sum over the contracted axis. Then the blocks: at grid point t
   the activations' block is rows 256 t .. 256 t + 255, the weights' block is the whole matrix, and the output's
   block is rows 256 t .. 256 t + 255 of the result, so every point writes back the restriction of ONE whole-array
   function, and the 32 blocks cover the array. -/
import proofs.«173827_j18485539242200_2_alg».proof.Proof.KI.Body0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The stored value at an index -/

/-- The product's left operand index at output (p, q) and contraction position k keeps the row p ... -/
theorem dot0_lhs_0 (i : S256x3072.Idx) (k : dot_S256x1024_S3072x1024_S256x3072_1_1_0_0_n_n.contr.Idx) :
    (dot_S256x1024_S3072x1024_S256x3072_1_1_0_0_n_n.lhsIdx i k 0).val = (i 0).val := by
  unfold DotDims.lhsIdx
  rw [dif_neg (show ¬(0 : Fin S256x1024.rank) ∈ dot_S256x1024_S3072x1024_S256x3072_1_1_0_0_n_n.lhsBatch by decide),
    dif_pos (show (0 : Fin S256x1024.rank) ∈ dot_S256x1024_S3072x1024_S256x3072_1_1_0_0_n_n.lhsNonContracting by decide)]
  rfl
/-- ... and puts k on the contracted axis; -/
theorem dot0_lhs_1 (i : S256x3072.Idx) (k : dot_S256x1024_S3072x1024_S256x3072_1_1_0_0_n_n.contr.Idx) :
    (dot_S256x1024_S3072x1024_S256x3072_1_1_0_0_n_n.lhsIdx i k 1).val = (k ⟨0, by decide⟩).val :=
  dot_S256x1024_S3072x1024_S256x3072_1_1_0_0_n_n.lhsIdx_val_of_single rfl i k
/-- the right operand's takes the output's column q as its row ... -/
theorem dot0_rhs_0 (i : S256x3072.Idx) (k : dot_S256x1024_S3072x1024_S256x3072_1_1_0_0_n_n.contr.Idx) :
    (dot_S256x1024_S3072x1024_S256x3072_1_1_0_0_n_n.rhsIdx i k 0).val = (i 1).val := by
  unfold DotDims.rhsIdx
  rw [dif_neg (show ¬(0 : Fin S3072x1024.rank) ∈ dot_S256x1024_S3072x1024_S256x3072_1_1_0_0_n_n.rhsBatch by decide),
    dif_pos (show (0 : Fin S3072x1024.rank) ∈ dot_S256x1024_S3072x1024_S256x3072_1_1_0_0_n_n.rhsNonContracting by decide)]
  rfl
/-- ... and k on its contracted axis. -/
theorem dot0_rhs_1 (i : S256x3072.Idx) (k : dot_S256x1024_S3072x1024_S256x3072_1_1_0_0_n_n.contr.Idx) :
    (dot_S256x1024_S3072x1024_S256x3072_1_1_0_0_n_n.rhsIdx i k 1).val = (k ⟨0, by decide⟩).val :=
  dot_S256x1024_S3072x1024_S256x3072_1_1_0_0_n_n.rhsIdx_val_of_single rfl i k

/-- The body's stored value at (p, q): the inner product of row p of the activations' block with row q of the weights. -/
theorem pay0_apply (x0 : Vec Ideal S256x1024 .f32) (x1 : Vec Ideal S3072x1024 .bf16) (p : Fin 256) (q : Fin 3072) :
    k0_pay1 (F := Ideal) x0 x1 (ix2 p q) = ∑ k : Fin 1024, x0 (ix2 p k) * x1 (ix2 q k) := by
  unfold k0_pay1
  simp only [shapeCast_self]
  refine (Ideal.matmul_constant_zero_apply (φ₁ := .bf16) (φ₂ := .bf16) dot_S256x1024_S3072x1024_S256x3072_1_1_0_0_n_n none
    (truncf .bf16 x0 bitsLt_bf16_f32) x1 (ix2 p q)).trans ?_
  rw [← Equiv.sum_comp (contrEquiv1 dot_S256x1024_S3072x1024_S256x3072_1_1_0_0_n_n 1024 rfl rfl).symm]
  refine Finset.sum_congr rfl fun k _ => ?_
  have hk := contrEquiv1_symm_val dot_S256x1024_S3072x1024_S256x3072_1_1_0_0_n_n 1024 rfl rfl k
  have el : dot_S256x1024_S3072x1024_S256x3072_1_1_0_0_n_n.lhsIdx (ix2 p q) ((contrEquiv1 dot_S256x1024_S3072x1024_S256x3072_1_1_0_0_n_n 1024 rfl rfl).symm k) = ix2 p k :=
    funext fun a => Fin.ext (by
      match a with
      | ⟨0, _⟩ => exact dot0_lhs_0 _ _
      | ⟨1, _⟩ => exact (dot0_lhs_1 _ _).trans hk)
  have er : dot_S256x1024_S3072x1024_S256x3072_1_1_0_0_n_n.rhsIdx (ix2 p q) ((contrEquiv1 dot_S256x1024_S3072x1024_S256x3072_1_1_0_0_n_n 1024 rfl rfl).symm k) = ix2 q k :=
    funext fun a => Fin.ext (by
      match a with
      | ⟨0, _⟩ => exact dot0_rhs_0 _ _
      | ⟨1, _⟩ => exact (dot0_rhs_1 _ _).trans hk)
  rw [el, er]
  rfl

/-! ## The blocks -/

theorem zeroOff2 : (![0, 0] : Fin 2 → Nat) = fun _ => 0 := funext fun a => by fin_cases a <;> rfl

/-- The windows' block indices over the grid: the activations' and the output's blocks move down one block of rows
    per point; the weights' block index never moves. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks
variable (V : (c : Dev nD) → (b : Ref sig .tc) → Buf (Elt Ideal) ((c : Thread nD τ).loc b))

/-- The activations' block at point t is rows 256 t .. 256 t + 255 of the array. -/
theorem iblk0_0_apply (c : Dev nD) (t : Fin cfg0.N) (y : S256x1024.Idx) (i : S8192x1024.Idx)
    (h0 : (i 0).val = 256 * t.val + (y 0).val) (h1 : (i 1).val = (y 1).val) :
    (iblk0 V c 0 t : Vec Ideal S256x1024 .f32) y = (V c main_v0 : S8192x1024.Idx → EReal) i := by
  obtain ⟨e0, e1, -⟩ := blockIdx0 t
  unfold iblk0
  rw [View.read_apply]
  show V c main_v0 _ = V c main_v0 _
  refine congrArg (V c main_v0) (funext fun a => Fin.ext ?_)
  match a with
  | ⟨0, _⟩ => show win0_0.index t (0 : Fin 2) * 256 + 1 * (y 0).val = (i 0).val; rw [e0, h0]; omega
  | ⟨1, _⟩ => show win0_0.index t (1 : Fin 2) * 1024 + 1 * (y 1).val = (i 1).val; rw [e1, h1]; omega

/-- The weights' block at every point is the whole array. -/
theorem iblk0_1_apply (c : Dev nD) (t : Fin cfg0.N) (y : S3072x1024.Idx) (i : S3072x1024.Idx)
    (h0 : (i 0).val = (y 0).val) (h1 : (i 1).val = (y 1).val) :
    (iblk0 V c 1 t : Vec Ideal S3072x1024 .bf16) y = (V c main_v1 : S3072x1024.Idx → EReal) i := by
  obtain ⟨-, -, e0, e1, -⟩ := blockIdx0 t
  unfold iblk0
  rw [View.read_apply]
  show V c main_v1 _ = V c main_v1 _
  refine congrArg (V c main_v1) (funext fun a => Fin.ext ?_)
  match a with
  | ⟨0, _⟩ => show win0_1.index t (0 : Fin 2) * 3072 + 1 * (y 0).val = (i 0).val; rw [e0, h0]; omega
  | ⟨1, _⟩ => show win0_1.index t (1 : Fin 2) * 1024 + 1 * (y 1).val = (i 1).val; rw [e1, h1]; omega

end Blocks

/-! ## From the blocks to the array -/

/-- Rows against rows: entry (r, o) is the inner product of row r of a with row o of w. -/
def rowDots (a : S8192x1024.Idx → EReal) (w : S3072x1024.Idx → EReal) : S8192x3072.Idx → EReal :=
  fun i => ∑ k : Fin 1024, a (ix2 (i 0) k) * w (ix2 (i 1) k)

theorem rowDots_apply (a : S8192x1024.Idx → EReal) (w : S3072x1024.Idx → EReal) (r : Fin 8192) (o : Fin 3072) :
    rowDots a w (ix2 r o) = ∑ k : Fin 1024, a (ix2 r k) * w (ix2 o k) := rfl

section Array
variable (V : (c : Dev nD) → (b : Ref sig .tc) → Buf (Elt Ideal) ((c : Thread nD τ).loc b))

/-- What point t writes back is block t of the rows-against-rows product of the two arrays as the region found them. -/
theorem flushed0_eq (c : Dev nD) (t : Fin cfg0.N) :
    (dat0 (F := Ideal) V c).flushed 2 t
      = ((cfg0.win 2).blk t).view.read (Elt Ideal) (rowDots (V c main_v0) (V c main_v1)) := by
  show (cfg0.win 2).cut (grid0.coords t) ((dat0 V c).after 2 t) = _
  rw [after0_2]
  unfold out0_2
  rw [View.canon_unit_zero zeroOff2]
  simp only [View.ld_unit_zero (S := S256x1024) zeroOff2, View.ld_unit_zero (S := S3072x1024) zeroOff2]
  obtain ⟨-, -, -, -, e0, e1⟩ := blockIdx0 t
  funext j
  obtain ⟨p, q, rfl⟩ : ∃ (p : Fin 256) (q : Fin 3072), j = ix2 p q := ⟨j 0, j 1, eq_ix2 j⟩
  show k0_pay1 (F := Ideal) (iblk0 V c 0 t) (iblk0 V c 1 t) (ix2 p q)
    = rowDots (V c main_v0) (V c main_v1) (((cfg0.win 2).blk t).view.emb (ix2 p q))
  refine (pay0_apply (iblk0 V c 0 t) (iblk0 V c 1 t) p q).trans ?_
  unfold rowDots
  refine Finset.sum_congr rfl fun k _ => ?_
  have hl := iblk0_0_apply V c t (ix2 p k) (ix2 ((((cfg0.win 2).blk t).view.emb (ix2 p q)) 0) k)
    (by show win0_2.index t (0 : Fin 2) * 256 + 1 * p.val = 256 * t.val + p.val; rw [e0]; omega) rfl
  have hr := iblk0_1_apply V c t (ix2 q k) (ix2 ((((cfg0.win 2).blk t).view.emb (ix2 p q)) 1) k)
    (by show win0_2.index t (1 : Fin 2) * 3072 + 1 * q.val = q.val; rw [e1]; omega) rfl
  rw [hl, hr]

/-- An index of the array is in point t's block iff each coordinate is in the block's range on its axis. -/
theorem mem_blk0 (t : Fin cfg0.N) (i : S8192x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v4).slice (win0_2.rect t)).set ↔ _
  rw [View.set_slice_whole, Rect.mem_set_unit]
  exact Iff.rfl

/-- Row r lies in the block of point r / 256: the 32 blocks cover the array. -/
theorem cover0 (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  have hN : cfg0.N = 32 := N_0
  let t : Fin cfg0.N := ⟨(i 0).val / 256, by rw [hN]; omega⟩
  obtain ⟨-, -, -, -, e0, e1⟩ := blockIdx0 t
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256
              rw [e0]; show (i 0).val / 256 * 256 ≤ (i 0).val ∧ (i 0).val < (i 0).val / 256 * 256 + 256; omega
  | ⟨1, _⟩ => show win0_2.index t (1 : Fin 2) * 3072 ≤ (i 1).val ∧ (i 1).val < win0_2.index t (1 : Fin 2) * 3072 + 3072
              rw [e1]; omega

/-- The array the region's write-backs leave: every entry the inner product of the activations' row with the weights' row. -/
theorem final0 (c : Dev nD) :
    (dat0 (F := Ideal) V c).arrAt 2 cfg0.N
      = rowDots (V c main_v0) (V c main_v1) :=
  (dat0 (F := Ideal) V c).arrAt_eq_of_cover 2 (rowDots (V c main_v0) (V c main_v1)) (fun t _ => flushed0_eq V c t) cover0

end Array

end Cert.KernelIdeal.Hand

end
-- ==== Proof.KI.V1Math.lean ====
/-
  Attention of one query row against 2048 key and value rows of one head, over the extended reals.

  For a query row qr (64 coordinates), keys K and values V (2048 rows of 64 coordinates):
    rowScore qr K j = (sum_d qr d * K j d) * 1/8
    rowAttn qr K V d = sum_j  exp (rowScore j - max_j' rowScore j') / (sum_j' exp (rowScore j' - max ...)) * V j d
  The specification's attn b t h d is this function of the projection's query row (b, t), head h, and of
  the key and value rows of batch b, head h.
-/
import proofs.«173827_j18485539242200_2_alg».proof.Proof.Spec

noncomputable section

namespace Cert.Spec

open Idealize.ShloMosaic Idealize.ShloMosaic.ValueIdx

/-- The scaled score of one query row against key row j. -/
def rowScore (qr : Fin 64 → EReal) (K : Fin 2048 → Fin 64 → EReal) (j : Fin 2048) : EReal :=
  (∑ d : Fin 64, qr d * K j d) * scale

/-- The row maximum of the scores: the fold of max over the key rows, from -inf. -/
def rowMax (qr : Fin 64 → EReal) (K : Fin 2048 → Fin 64 → EReal) : EReal :=
  (Finset.univ : Finset (Fin 2048)).fold max (⊥ : EReal) (fun j => rowScore qr K j)

/-- The shifted exponential of the score against key row j. -/
def rowEx (qr : Fin 64 → EReal) (K : Fin 2048 → Fin 64 → EReal) (j : Fin 2048) : EReal :=
  Ideal.exp (rowScore qr K j - rowMax qr K)

/-- The softmax weight of key row j. -/
def rowProb (qr : Fin 64 → EReal) (K : Fin 2048 → Fin 64 → EReal) (j : Fin 2048) : EReal :=
  Ideal.div (rowEx qr K j) (∑ j' : Fin 2048, rowEx qr K j')

/-- The attention output of one query row at coordinate d. -/
def rowAttn (qr : Fin 64 → EReal) (K V : Fin 2048 → Fin 64 → EReal) (d : Fin 64) : EReal :=
  ∑ j : Fin 2048, rowProb qr K j * V j d

variable (x : SX.Idx → EReal) (w : SW.Idx → EReal)

/-- The specification's attention output is the row attention of the projection's rows. -/
theorem attn_eq_rowAttn (b : Fin 4) (t : Fin 2048) (h : Fin 16) (d : Fin 64) :
    attn x w b t h d
      = rowAttn (fun d' => proj x w b t (col3 0 h d')) (fun j d' => proj x w b j (col3 1 h d'))
          (fun j d' => proj x w b j (col3 2 h d')) d := rfl

end Cert.Spec

end
-- ==== Proof.KI.V1Pay.lean ====
/-
  The attention body's stored value, read at an index over the extended reals.

  For one head the body takes a 512 x 64 block q of queries and 2048 x 64 blocks k, v of keys and values.
  It forms the 512 x 2048 scores (q times the transpose of k, into a zero accumulator, times 1/8), the
  row maxima (a fold of max from -inf), the shifted exponentials, their row sums (from zero), the quotient,
  and the product of the 512 x 2048 weights with v into a zero accumulator. The changes of float format are
  the identity. Read at (r, d) the result is the row attention of query row r against the 2048 rows of k
  and v, at coordinate d. The row maxima and row sums are carried back along the key axis through a unit
  axis: (r) to (r, 0) to (r, j).
-/
import proofs.«173827_j18485539242200_2_alg».proof.Proof.Gen.KernelIdeal.Skeleton
import proofs.«173827_j18485539242200_2_alg».proof.Proof.KI.V1Math
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.Spec

/-! ## The two matrix products' index maps -/

/-- Queries against transposed keys: [512, 64] x [64, 2048]. -/
abbrev DQK := dot_S512x64_S64x2048_S512x2048_1_0_0_1_n_n
/-- Weights against values: [512, 2048] x [2048, 64]. -/
abbrev DPV := dot_S512x2048_S2048x64_S512x64_1_0_0_1_n_n

theorem dqk_lhs_0 (i : S512x2048.Idx) (k : DQK.contr.Idx) : (DQK.lhsIdx i k 0).val = (i 0).val := by
  unfold DotDims.lhsIdx
  rw [dif_neg (show ¬(0 : Fin S512x64.rank) ∈ DQK.lhsBatch by decide),
    dif_pos (show (0 : Fin S512x64.rank) ∈ DQK.lhsNonContracting by decide)]
  rfl
theorem dqk_lhs_1 (i : S512x2048.Idx) (k : DQK.contr.Idx) : (DQK.lhsIdx i k 1).val = (k ⟨0, by decide⟩).val :=
  DQK.lhsIdx_val_of_single rfl i k
theorem dqk_rhs_0 (i : S512x2048.Idx) (k : DQK.contr.Idx) : (DQK.rhsIdx i k 0).val = (k ⟨0, by decide⟩).val :=
  DQK.rhsIdx_val_of_single rfl i k
theorem dqk_rhs_1 (i : S512x2048.Idx) (k : DQK.contr.Idx) : (DQK.rhsIdx i k 1).val = (i 1).val := by
  unfold DotDims.rhsIdx
  rw [dif_neg (show ¬(1 : Fin S64x2048.rank) ∈ DQK.rhsBatch by decide),
    dif_pos (show (1 : Fin S64x2048.rank) ∈ DQK.rhsNonContracting by decide)]
  rfl

theorem dpv_lhs_0 (i : S512x64.Idx) (k : DPV.contr.Idx) : (DPV.lhsIdx i k 0).val = (i 0).val := by
  unfold DotDims.lhsIdx
  rw [dif_neg (show ¬(0 : Fin S512x2048.rank) ∈ DPV.lhsBatch by decide),
    dif_pos (show (0 : Fin S512x2048.rank) ∈ DPV.lhsNonContracting by decide)]
  rfl
theorem dpv_lhs_1 (i : S512x64.Idx) (k : DPV.contr.Idx) : (DPV.lhsIdx i k 1).val = (k ⟨0, by decide⟩).val :=
  DPV.lhsIdx_val_of_single rfl i k
theorem dpv_rhs_0 (i : S512x64.Idx) (k : DPV.contr.Idx) : (DPV.rhsIdx i k 0).val = (k ⟨0, by decide⟩).val :=
  DPV.rhsIdx_val_of_single rfl i k
theorem dpv_rhs_1 (i : S512x64.Idx) (k : DPV.contr.Idx) : (DPV.rhsIdx i k 1).val = (i 1).val := by
  unfold DotDims.rhsIdx
  rw [dif_neg (show ¬(1 : Fin S2048x64.rank) ∈ DPV.rhsBatch by decide),
    dif_pos (show (1 : Fin S2048x64.rank) ∈ DPV.rhsNonContracting by decide)]
  rfl

/-! ## Rows of a 512 x 2048 array: maximum, sum, and a column carried back along the row -/

/-- Minus infinity, as the body spells it, is the bottom of the extended reals. -/
theorem ofBits_neg_inf : Ideal.ofBits .f32 0xFF800000#32 = (⊥ : EReal) := by
  simp [Ideal.ofBits, Ideal.ieee]

/-- The row index r with column position k put back is (r, k). -/
theorem lift_cols (h : S512x2048.Reduces [1] S512) (r : Fin 512) (k : Fin (S512x2048.size 1)) :
    h.lift (ix1 r) k = ix2 r (⟨k.val, k.isLt⟩ : Fin 2048) := by
  funext c; apply Fin.ext
  fin_cases c <;> rfl

/-- A row's maximum from -inf is the fold of max over its 2048 entries. -/
theorem rowMaxf_apply (s : FVec Ideal S512x2048 .f32) (h : S512x2048.Reduces [1] S512) (r : Fin 512) :
    multiReduction .maximumf [1] S512 s 0xFF800000#32 h (.inl rfl) rfl (ix1 r)
      = (Finset.univ : Finset (Fin 2048)).fold max (⊥ : EReal) (fun j => s (ix2 r j)) := by
  refine (Ideal.multiReduction_maximumf_single s 0xFF800000#32 h (.inl rfl) rfl (ix1 r)).trans ?_
  have hf : (s ∘ h.lift (ix1 r)) = fun j : Fin 2048 => s (ix2 r j) :=
    funext fun k => congrArg s (lift_cols h r k)
  rw [Ideal.ofBits_def, ofBits_neg_inf]
  exact congrArg (fun f => Finset.fold max (⊥ : EReal) f (Finset.univ : Finset (Fin 2048))) hf

/-- A row's sum from zero is the sum of its 2048 entries. -/
theorem rowSum_apply (s : FVec Ideal S512x2048 .f32) (h : S512x2048.Reduces [1] S512) (r : Fin 512) :
    multiReduction .add [1] S512 s 0x00000000#32 h (.inl rfl) rfl (ix1 r) = ∑ j : Fin 2048, s (ix2 r j) := by
  refine (Ideal.multiReduction_add_single s 0x00000000#32 h (.inl rfl) rfl (ix1 r)).trans ?_
  exact Finset.sum_congr rfl fun k _ => congrArg s (lift_cols h r k)

/-- A vector of 512 entries cast to a column and broadcast along the rows reads entry r at (r, j). -/
theorem colBroadcast_apply (v : FVec Ideal S512 .f32) (h1 : S512.ShapeCasts S512x1) (h2 : S512x1.Broadcasts S512x2048)
    (r : Fin 512) (j : Fin 2048) :
    broadcastTo S512x2048 (shapeCast S512x1 v h1) h2 (ix2 r j) = v (ix1 r) := by
  refine (broadcastTo_apply _ h2 (ix2 r j) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else j.val; rw [if_pos rfl]
  · exact shapeCast_apply v h1 (ix2 r (0 : Fin 1)) (ix1 r)
      (by rw [Shape.rowMajor_val_one, Shape.rowMajor_val_two]; show r.val = r.val * 1 + 0; omega)

/-! ## The scores -/

/-- The scaled score of query row r against key row j. -/
theorem pay4_apply (q : Vec Ideal S512x64 .bf16) (k : Vec Ideal S2048x64 .bf16) (r : Fin 512) (j : Fin 2048) :
    k1_pay4 (F := Ideal) q k (ix2 r j) = rowScore (fun d => q (ix2 r d)) (fun j' d => k (ix2 j' d)) j := by
  unfold k1_pay4 rowScore
  simp only [shapeCast_self]
  refine (mulf_apply _ _ _).trans ?_
  refine congrArg₂ (· * ·) ?_ rfl
  refine (Ideal.matmul_constant_zero_apply (φ₁ := .bf16) (φ₂ := .bf16) DQK none q _ (ix2 r j)).trans ?_
  rw [← Equiv.sum_comp (contrEquiv1 DQK 64 rfl rfl).symm]
  refine Finset.sum_congr rfl fun d _ => ?_
  have hk := contrEquiv1_symm_val DQK 64 rfl rfl d
  have el : DQK.lhsIdx (ix2 r j) ((contrEquiv1 DQK 64 rfl rfl).symm d) = ix2 r d :=
    funext fun a => Fin.ext (by
      match a with
      | ⟨0, _⟩ => exact dqk_lhs_0 _ _
      | ⟨1, _⟩ => exact (dqk_lhs_1 _ _).trans hk)
  have er : DQK.rhsIdx (ix2 r j) ((contrEquiv1 DQK 64 rfl rfl).symm d) = ix2 d j :=
    funext fun a => Fin.ext (by
      match a with
      | ⟨0, _⟩ => exact (dqk_rhs_0 _ _).trans hk
      | ⟨1, _⟩ => exact dqk_rhs_1 _ _)
  rw [el, er]
  refine congrArg (q (ix2 r d) * ·) ?_
  exact transpose_apply [1, 0] k _ (ix2 d j) (ix2 j d) (fun b => match b with | ⟨0, _⟩ => rfl | ⟨1, _⟩ => rfl)

/-- The row maximum of the scores of query row r. -/
theorem pay5_apply (q : Vec Ideal S512x64 .bf16) (k : Vec Ideal S2048x64 .bf16) (r : Fin 512) :
    k1_pay5 (F := Ideal) q k (ix1 r)
      = (Finset.univ : Finset (Fin 2048)).fold max (⊥ : EReal) (fun j => k1_pay4 (F := Ideal) q k (ix2 r j)) := by
  unfold k1_pay5
  exact rowMaxf_apply _ _ r

/-- The values pass through unchanged. -/
theorem pay3_eq (v : Vec Ideal S2048x64 .bf16) : k1_pay3 (F := Ideal) v = v := by
  unfold k1_pay3
  exact shapeCast_self _ _

/-! ## From scores and row maxima to the output -/

/-- The shifted exponentials of a score array against a vector of row shifts. -/
def shiftExp (s : FVec Ideal S512x2048 .f32) (m : FVec Ideal S512 .f32) : FVec Ideal S512x2048 .f32 :=
  exp (subf s (broadcastTo S512x2048 (shapeCast S512x1 m shapeCasts_S512_S512x1) broadcasts_S512x1_S512x2048))

theorem shiftExp_apply (s : FVec Ideal S512x2048 .f32) (m : FVec Ideal S512 .f32) (r : Fin 512) (j : Fin 2048) :
    shiftExp s m (ix2 r j) = Ideal.exp (s (ix2 r j) - m (ix1 r)) := by
  unfold shiftExp
  show Ideal.exp (s (ix2 r j)
    - broadcastTo S512x2048 (shapeCast S512x1 m shapeCasts_S512_S512x1) broadcasts_S512x1_S512x2048 (ix2 r j)) = _
  rw [colBroadcast_apply]

/-- The shifted exponentials over their row sums. -/
def softW (s : FVec Ideal S512x2048 .f32) (m : FVec Ideal S512 .f32) : FVec Ideal S512x2048 .f32 :=
  divf (shiftExp s m) (broadcastTo S512x2048 (shapeCast S512x1
    (multiReduction .add [1] S512 (shiftExp s m) 0x00000000#32 reduces_S512x2048_S512 (.inl rfl) rfl)
    shapeCasts_S512_S512x1) broadcasts_S512x1_S512x2048)

theorem softW_apply (s : FVec Ideal S512x2048 .f32) (m : FVec Ideal S512 .f32) (r : Fin 512) (j : Fin 2048) :
    softW s m (ix2 r j)
      = Ideal.div (Ideal.exp (s (ix2 r j) - m (ix1 r))) (∑ j' : Fin 2048, Ideal.exp (s (ix2 r j') - m (ix1 r))) := by
  unfold softW
  refine (divf_apply _ _ _).trans ?_
  rw [colBroadcast_apply, rowSum_apply, shiftExp_apply]
  refine congrArg (Ideal.div _) (Finset.sum_congr rfl fun j' _ => ?_)
  exact shiftExp_apply s m r j'

/-- The tail of the body: the weights of a score array against row shifts, times the values. -/
theorem pay1_eq (v : FVec Ideal S2048x64 .bf16) (s : FVec Ideal S512x2048 .f32) (m : FVec Ideal S512 .f32) :
    k1_pay1 (F := Ideal) v s m
      = truncf .bf16 (matmul DPV none (truncf .bf16 (softW s m) bitsLt_bf16_f32) v (constant S512x64 .f32 0x00000000#32))
          bitsLt_bf16_f32 := rfl

theorem pay1_apply (v : FVec Ideal S2048x64 .bf16) (s : FVec Ideal S512x2048 .f32) (m : FVec Ideal S512 .f32)
    (r : Fin 512) (d : Fin 64) :
    k1_pay1 (F := Ideal) v s m (ix2 r d)
      = ∑ j : Fin 2048, Ideal.div (Ideal.exp (s (ix2 r j) - m (ix1 r)))
          (∑ j' : Fin 2048, Ideal.exp (s (ix2 r j') - m (ix1 r))) * v (ix2 j d) := by
  rw [pay1_eq]
  refine (Ideal.matmul_constant_zero_apply (φ₁ := .bf16) (φ₂ := .bf16) DPV none
    (truncf .bf16 (softW s m) bitsLt_bf16_f32) v (ix2 r d)).trans ?_
  rw [← Equiv.sum_comp (contrEquiv1 DPV 2048 rfl rfl).symm]
  refine Finset.sum_congr rfl fun j _ => ?_
  have hk := contrEquiv1_symm_val DPV 2048 rfl rfl j
  have el : DPV.lhsIdx (ix2 r d) ((contrEquiv1 DPV 2048 rfl rfl).symm j) = ix2 r j :=
    funext fun a => Fin.ext (by
      match a with
      | ⟨0, _⟩ => exact dpv_lhs_0 _ _
      | ⟨1, _⟩ => exact (dpv_lhs_1 _ _).trans hk)
  have er : DPV.rhsIdx (ix2 r d) ((contrEquiv1 DPV 2048 rfl rfl).symm j) = ix2 j d :=
    funext fun a => Fin.ext (by
      match a with
      | ⟨0, _⟩ => exact (dpv_rhs_0 _ _).trans hk
      | ⟨1, _⟩ => exact dpv_rhs_1 _ _)
  rw [el, er]
  refine congrArg (· * v (ix2 j d)) ?_
  exact softW_apply s m r j

/-! ## One head's stored value -/

/-- The right head's stored value at (r, d): the row attention of query row r. -/
theorem head_apply (q : Vec Ideal S512x64 .bf16) (k v : Vec Ideal S2048x64 .bf16) (r : Fin 512) (d : Fin 64) :
    k1_pay1 (F := Ideal) (k1_pay3 v) (k1_pay4 q k) (k1_pay5 q k) (ix2 r d)
      = rowAttn (fun d' => q (ix2 r d')) (fun j d' => k (ix2 j d')) (fun j d' => v (ix2 j d')) d := by
  rw [pay1_apply, pay3_eq]
  unfold rowAttn rowProb rowEx rowMax
  simp only [pay4_apply, pay5_apply]

/-- The left head's stored value is the same function of its three blocks. -/
theorem pay2_eq (q : Vec Ideal S512x64 .bf16) (k v : Vec Ideal S2048x64 .bf16) :
    k1_pay2 (F := Ideal) q k v = k1_pay1 (F := Ideal) (k1_pay3 v) (k1_pay4 q k) (k1_pay5 q k) := rfl

theorem pay2_apply (q : Vec Ideal S512x64 .bf16) (k v : Vec Ideal S2048x64 .bf16) (r : Fin 512) (d : Fin 64) :
    k1_pay2 (F := Ideal) q k v (ix2 r d)
      = rowAttn (fun d' => q (ix2 r d')) (fun j d' => k (ix2 j d')) (fun j d' => v (ix2 j d')) d := by
  rw [pay2_eq]
  exact head_apply q k v r d

end Cert.KernelIdeal.Hand

end
-- ==== Proof.KI.Idx.lean ====
/- Two index conventions shared by the program's arrays. The activations [4, 2048, ·] are handled flattened to
   [8192, ·]: token t of batch element b is row b * 2048 + t. The model axis [1024] is 16 heads of 64 coordinates:
   coordinate d of head h is column h * 64 + d. -/
import Idealize.ShloMosaic.Lib.ValueIdx

namespace Cert.KernelIdeal.Hand

/-- Token t of batch element b as a row of the flattened arrays. -/
def row (b : Fin 4) (t : Fin 2048) : Fin 8192 :=
  ⟨b.val * 2048 + t.val, by have hb := b.isLt; have ht := t.isLt; omega⟩

/-- Coordinate d of head h as a column of the model axis. -/
def col (h : Fin 16) (d : Fin 64) : Fin 1024 :=
  ⟨h.val * 64 + d.val, by have hh := h.isLt; have hd := d.isLt; omega⟩

theorem row_val (b : Fin 4) (t : Fin 2048) : (row b t).val = b.val * 2048 + t.val := rfl
theorem col_val (h : Fin 16) (d : Fin 64) : (col h d).val = h.val * 64 + d.val := rfl

/-- Every row is the row of exactly one (batch element, token). -/
theorem row_div_mod (r : Fin 8192) : row ⟨r.val / 2048, by have := r.isLt; omega⟩ ⟨r.val % 2048, Nat.mod_lt _ (by decide)⟩ = r :=
  Fin.ext (by show r.val / 2048 * 2048 + r.val % 2048 = r.val; omega)

/-- Every column is the column of exactly one (head, coordinate). -/
theorem col_div_mod (c : Fin 1024) : col ⟨c.val / 64, by have := c.isLt; omega⟩ ⟨c.val % 64, Nat.mod_lt _ (by decide)⟩ = c :=
  Fin.ext (by show c.val / 64 * 64 + c.val % 64 = c.val; omega)

end Cert.KernelIdeal.Hand
-- ==== Proof.KI.Value1.lean ====
/-
  The value of region 1 (the attention kernel) over the extended reals.

  The region's input array A is [8192, 3072]: row b*2048 + t is token (b, t), column j*1024 + h*64 + d is part j
  (query, key, value), head h, coordinate d. Its output array is [8192, 1024]: column h*64 + d. At grid point
  (b, hp, tq) the query block is rows b*2048 + tq*512 .. + 511, columns hp*128 .. + 127 (heads 2hp, 2hp + 1); the
  key and value blocks are the 2048 rows of batch b at columns 1024 + hp*128 .. and 2048 + hp*128 ..; the output
  block is the query block's rows at columns hp*128 .. + 127. The body's two stores tile the output block, and
  each stored entry is the row attention of its query row against the 2048 key and value rows of its head. So
  every point writes back the restriction of ONE function of A, and the 128 blocks cover the output array.
-/
import proofs.«173827_j18485539242200_2_alg».proof.Proof.KI.Body1
import proofs.«173827_j18485539242200_2_alg».proof.Proof.KI.V1Pay
import proofs.«173827_j18485539242200_2_alg».proof.Proof.KI.Idx
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Cert.Spec
open Idealize.ShloMosaic.Pipeline (Dat)

/-- Row attention depends only on its four arguments. -/
theorem rowAttn_congr {qr qr' : Fin 64 → EReal} {K K' V V' : Fin 2048 → Fin 64 → EReal} {d d' : Fin 64}
    (hq : qr = qr') (hK : K = K') (hV : V = V') (hd : d = d') : rowAttn qr K V d = rowAttn qr' K' V' d' := by
  subst hq; subst hK; subst hV; subst hd; rfl

/-! ## The output block as one function of the three input blocks -/

/-- Column d' of the head that block column cc belongs to (the left head: columns 0..63; the right: 64..127). -/
def hcol (cc : Fin 128) (d' : Fin 64) : Fin 128 := ⟨cc.val / 64 * 64 + d'.val, by omega⟩

/-- The output block's entry (r, cc): query row r of the block, the head of column cc, coordinate cc % 64. -/
def blockAttnAt (x0 : Vec Ideal S512x128 .bf16) (x1 x2 : Vec Ideal S2048x128 .bf16) (r : Fin 512) (cc : Fin 128) : EReal :=
  rowAttn (fun d' => x0 (ix2 r (hcol cc d'))) (fun j d' => x1 (ix2 j (hcol cc d'))) (fun j d' => x2 (ix2 j (hcol cc d')))
    (⟨cc.val % 64, Nat.mod_lt _ (by decide)⟩ : Fin 64)

def blockAttn (x0 : Vec Ideal S512x128 .bf16) (x1 x2 : Vec Ideal S2048x128 .bf16) : S512x128.Idx → EReal :=
  fun y => blockAttnAt x0 x1 x2 (y 0) (y 1)

theorem rq_l_emb (r : Fin 512) (d : Fin 64) : rq_l.emb (ix2 r d) = ix2 r (⟨d.val, by omega⟩ : Fin 128) :=
  funext fun a => Fin.ext (by
    match a with
    | ⟨0, _⟩ => show 0 + 1 * r.val = r.val; omega
    | ⟨1, _⟩ => show 0 + 1 * d.val = d.val; omega)
theorem rq_r_emb (r : Fin 512) (d : Fin 64) : rq_r.emb (ix2 r d) = ix2 r (⟨64 + d.val, by omega⟩ : Fin 128) :=
  funext fun a => Fin.ext (by
    match a with
    | ⟨0, _⟩ => show 0 + 1 * r.val = r.val; omega
    | ⟨1, _⟩ => show 64 + 1 * d.val = 64 + d.val; omega)
theorem rk_l_emb (j : Fin 2048) (d : Fin 64) : rk_l.emb (ix2 j d) = ix2 j (⟨d.val, by omega⟩ : Fin 128) :=
  funext fun a => Fin.ext (by
    match a with
    | ⟨0, _⟩ => show 0 + 1 * j.val = j.val; omega
    | ⟨1, _⟩ => show 0 + 1 * d.val = d.val; omega)
theorem rk_r_emb (j : Fin 2048) (d : Fin 64) : rk_r.emb (ix2 j d) = ix2 j (⟨64 + d.val, by omega⟩ : Fin 128) :=
  funext fun a => Fin.ext (by
    match a with
    | ⟨0, _⟩ => show 0 + 1 * j.val = j.val; omega
    | ⟨1, _⟩ => show 64 + 1 * d.val = 64 + d.val; omega)

/-- The left head's stored piece is the block function on the left 64 columns. -/
theorem piece_l (x0 : Vec Ideal S512x128 .bf16) (x1 x2 : Vec Ideal S2048x128 .bf16) (x : S512x64.Idx) :
    k1_pay2 (F := Ideal) (View.ld x0 rq_l) (View.ld x1 rk_l) (View.ld x2 rk_l) x = blockAttn x0 x1 x2 (rq_l.emb x) := by
  obtain ⟨r, d, rfl⟩ : ∃ (r : Fin 512) (d : Fin 64), x = ix2 r d := ⟨x 0, x 1, eq_ix2 x⟩
  rw [pay2_apply, rq_l_emb]
  have hd := d.isLt
  unfold blockAttn blockAttnAt
  refine rowAttn_congr (funext fun d' => ?_) (funext fun j => funext fun d' => ?_) (funext fun j => funext fun d' => ?_) (Fin.ext ?_)
  · show x0 (rq_l.emb (ix2 r d')) = _
    rw [rq_l_emb]
    refine congrArg x0 (funext fun a => Fin.ext ?_)
    match a with
    | ⟨0, _⟩ => rfl
    | ⟨1, _⟩ => show d'.val = d.val / 64 * 64 + d'.val; omega
  · show x1 (rk_l.emb (ix2 j d')) = _
    rw [rk_l_emb]
    refine congrArg x1 (funext fun a => Fin.ext ?_)
    match a with
    | ⟨0, _⟩ => rfl
    | ⟨1, _⟩ => show d'.val = d.val / 64 * 64 + d'.val; omega
  · show x2 (rk_l.emb (ix2 j d')) = _
    rw [rk_l_emb]
    refine congrArg x2 (funext fun a => Fin.ext ?_)
    match a with
    | ⟨0, _⟩ => rfl
    | ⟨1, _⟩ => show d'.val = d.val / 64 * 64 + d'.val; omega
  · show d.val = d.val % 64; omega

/-- The right head's stored piece is the block function on the right 64 columns. -/
theorem piece_r (x0 : Vec Ideal S512x128 .bf16) (x1 x2 : Vec Ideal S2048x128 .bf16) (x : S512x64.Idx) :
    k1_pay1 (F := Ideal) (k1_pay3 (View.ld x2 rk_r)) (k1_pay4 (View.ld x0 rq_r) (View.ld x1 rk_r))
        (k1_pay5 (View.ld x0 rq_r) (View.ld x1 rk_r)) x
      = blockAttn x0 x1 x2 (rq_r.emb x) := by
  obtain ⟨r, d, rfl⟩ : ∃ (r : Fin 512) (d : Fin 64), x = ix2 r d := ⟨x 0, x 1, eq_ix2 x⟩
  rw [head_apply, rq_r_emb]
  have hd := d.isLt
  unfold blockAttn blockAttnAt
  refine rowAttn_congr (funext fun d' => ?_) (funext fun j => funext fun d' => ?_) (funext fun j => funext fun d' => ?_) (Fin.ext ?_)
  · show x0 (rq_r.emb (ix2 r d')) = _
    rw [rq_r_emb]
    refine congrArg x0 (funext fun a => Fin.ext ?_)
    match a with
    | ⟨0, _⟩ => rfl
    | ⟨1, _⟩ => show 64 + d'.val = (64 + d.val) / 64 * 64 + d'.val; omega
  · show x1 (rk_r.emb (ix2 j d')) = _
    rw [rk_r_emb]
    refine congrArg x1 (funext fun a => Fin.ext ?_)
    match a with
    | ⟨0, _⟩ => rfl
    | ⟨1, _⟩ => show 64 + d'.val = (64 + d.val) / 64 * 64 + d'.val; omega
  · show x2 (rk_r.emb (ix2 j d')) = _
    rw [rk_r_emb]
    refine congrArg x2 (funext fun a => Fin.ext ?_)
    match a with
    | ⟨0, _⟩ => rfl
    | ⟨1, _⟩ => show 64 + d'.val = (64 + d.val) / 64 * 64 + d'.val; omega
  · show d.val = (64 + d.val) % 64; omega

/-- What the body leaves in the output block is the block function of the three input blocks. -/
theorem out1_3_eq (x0 : Vec Ideal S512x128 .bf16) (x1 x2 : Vec Ideal S2048x128 .bf16) :
    out1_3 (F := Ideal) x0 x1 x2 = blockAttn x0 x1 x2 := by
  funext y
  unfold out1_3
  refine View.canon_apply_of_pieces (Val := Elt Ideal) (e := .bf16) (blockAttn x0 x1 x2) _ ?_ y (cover1_3 _ _ y)
  intro p hp
  rcases List.mem_cons.1 hp with rfl | hp
  · exact piece_r x0 x1 x2
  · rcases List.mem_cons.1 hp with rfl | hp
    · exact piece_l x0 x1 x2
    · exact absurd hp (List.not_mem_nil)

/-! ## The blocks -/

/-- The windows' block indices over the grid, point t = (b*8 + hp)*4 + tq: the query and output blocks are
    (b*4 + tq, hp), the key block (b, 8 + hp), the value block (b, 16 + hp). -/
theorem blockIdx1 : ∀ t : Fin cfg1.N,
    win1_0.index t (0 : Fin 2) = t.val / 32 * 4 + t.val % 4 ∧ win1_0.index t (1 : Fin 2) = t.val / 4 % 8
    ∧ win1_1.index t (0 : Fin 2) = t.val / 32 ∧ win1_1.index t (1 : Fin 2) = 8 + t.val / 4 % 8
    ∧ win1_2.index t (0 : Fin 2) = t.val / 32 ∧ win1_2.index t (1 : Fin 2) = 16 + t.val / 4 % 8
    ∧ win1_3.index t (0 : Fin 2) = t.val / 32 * 4 + t.val % 4 ∧ win1_3.index t (1 : Fin 2) = t.val / 4 % 8 :=
  (by decide +kernel : ∀ t : Fin grid1.N, _)

section Blocks
variable (V : (c : Dev nD) → (b : Ref sig .tc) → Buf (Elt Ideal) ((c : Thread nD τ).loc b))

/-- The query block at point t. -/
theorem iblk1_0_apply (c : Dev nD) (t : Fin cfg1.N) (y : S512x128.Idx) (i : S8192x3072.Idx)
    (h0 : (i 0).val = (t.val / 32 * 4 + t.val % 4) * 512 + (y 0).val) (h1 : (i 1).val = t.val / 4 % 8 * 128 + (y 1).val) :
    (iblk1 V c 0 t : Vec Ideal S512x128 .bf16) y = (V c main_v4 : S8192x3072.Idx → EReal) i := by
  obtain ⟨e0, e1, -⟩ := blockIdx1 t
  unfold iblk1
  rw [View.read_apply]
  show V c main_v4 _ = V c main_v4 _
  refine congrArg (V c main_v4) (funext fun a => Fin.ext ?_)
  match a with
  | ⟨0, _⟩ => show win1_0.index t (0 : Fin 2) * 512 + 1 * (y 0).val = (i 0).val; rw [e0, h0]; omega
  | ⟨1, _⟩ => show win1_0.index t (1 : Fin 2) * 128 + 1 * (y 1).val = (i 1).val; rw [e1, h1]; omega

/-- The key block at point t. -/
theorem iblk1_1_apply (c : Dev nD) (t : Fin cfg1.N) (y : S2048x128.Idx) (i : S8192x3072.Idx)
    (h0 : (i 0).val = t.val / 32 * 2048 + (y 0).val) (h1 : (i 1).val = (8 + t.val / 4 % 8) * 128 + (y 1).val) :
    (iblk1 V c 1 t : Vec Ideal S2048x128 .bf16) y = (V c main_v4 : S8192x3072.Idx → EReal) i := by
  obtain ⟨-, -, e0, e1, -⟩ := blockIdx1 t
  unfold iblk1
  rw [View.read_apply]
  show V c main_v4 _ = V c main_v4 _
  refine congrArg (V c main_v4) (funext fun a => Fin.ext ?_)
  match a with
  | ⟨0, _⟩ => show win1_1.index t (0 : Fin 2) * 2048 + 1 * (y 0).val = (i 0).val; rw [e0, h0]; omega
  | ⟨1, _⟩ => show win1_1.index t (1 : Fin 2) * 128 + 1 * (y 1).val = (i 1).val; rw [e1, h1]; omega

/-- The value block at point t. -/
theorem iblk1_2_apply (c : Dev nD) (t : Fin cfg1.N) (y : S2048x128.Idx) (i : S8192x3072.Idx)
    (h0 : (i 0).val = t.val / 32 * 2048 + (y 0).val) (h1 : (i 1).val = (16 + t.val / 4 % 8) * 128 + (y 1).val) :
    (iblk1 V c 2 t : Vec Ideal S2048x128 .bf16) y = (V c main_v4 : S8192x3072.Idx → EReal) i := by
  obtain ⟨-, -, -, -, e0, e1, -⟩ := blockIdx1 t
  unfold iblk1
  rw [View.read_apply]
  show V c main_v4 _ = V c main_v4 _
  refine congrArg (V c main_v4) (funext fun a => Fin.ext ?_)
  match a with
  | ⟨0, _⟩ => show win1_2.index t (0 : Fin 2) * 2048 + 1 * (y 0).val = (i 0).val; rw [e0, h0]; omega
  | ⟨1, _⟩ => show win1_2.index t (1 : Fin 2) * 128 + 1 * (y 1).val = (i 1).val; rw [e1, h1]; omega

end Blocks

/-! ## From the blocks to the array -/

/-- Column d' of part 0 (queries) of the head that output column C belongs to. -/
def qCol (C : Fin 1024) (d' : Fin 64) : Fin 3072 := ⟨C.val / 64 * 64 + d'.val, by omega⟩
/-- Column d' of part 1 (keys) of that head. -/
def kCol (C : Fin 1024) (d' : Fin 64) : Fin 3072 := ⟨1024 + C.val / 64 * 64 + d'.val, by omega⟩
/-- Column d' of part 2 (values) of that head. -/
def vCol (C : Fin 1024) (d' : Fin 64) : Fin 3072 := ⟨2048 + C.val / 64 * 64 + d'.val, by omega⟩
/-- Row j of the batch that row R belongs to. -/
def bRow (R : Fin 8192) (j : Fin 2048) : Fin 8192 := ⟨R.val / 2048 * 2048 + j.val, by omega⟩

/-- The output array's entry (R, C) as a function of the input array. -/
def attnAt (A : S8192x3072.Idx → EReal) (R : Fin 8192) (C : Fin 1024) : EReal :=
  rowAttn (fun d' => A (ix2 R (qCol C d'))) (fun j d' => A (ix2 (bRow R j) (kCol C d'))) (fun j d' => A (ix2 (bRow R j) (vCol C d')))
    (⟨C.val % 64, Nat.mod_lt _ (by decide)⟩ : Fin 64)

def attnArr (A : S8192x3072.Idx → EReal) : S8192x1024.Idx → EReal := fun i => attnAt A (i 0) (i 1)

section Array
variable (V : (c : Dev nD) → (b : Ref sig .tc) → Buf (Elt Ideal) ((c : Thread nD τ).loc b))

/-- At point t the block function of the three input blocks at (r, cc) is the array function at the entry of the
    output array that (r, cc) of the output block is. -/
theorem flush_point (c : Dev nD) (t : Fin cfg1.N) (r : Fin 512) (cc : Fin 128) (I : S8192x1024.Idx)
    (hR : (I 0).val = (t.val / 32 * 4 + t.val % 4) * 512 + r.val) (hC : (I 1).val = t.val / 4 % 8 * 128 + cc.val) :
    blockAttnAt (iblk1 V c 0 t) (iblk1 V c 1 t) (iblk1 V c 2 t) r cc = attnAt (V c main_v4) (I 0) (I 1) := by
  have ht : t.val < 128 := Nat.lt_of_lt_of_eq t.isLt N_1
  have hr := r.isLt; have hcc := cc.isLt
  unfold blockAttnAt attnAt
  refine rowAttn_congr (funext fun d' => ?_) (funext fun j => funext fun d' => ?_) (funext fun j => funext fun d' => ?_) (Fin.ext ?_)
  · have hd' := d'.isLt
    refine iblk1_0_apply V c t _ _ ?_ ?_
    · show (I 0).val = (t.val / 32 * 4 + t.val % 4) * 512 + r.val; exact hR
    · show (I 1).val / 64 * 64 + d'.val = t.val / 4 % 8 * 128 + (cc.val / 64 * 64 + d'.val); omega
  · have hd' := d'.isLt; have hj := j.isLt
    refine iblk1_1_apply V c t _ _ ?_ ?_
    · show (I 0).val / 2048 * 2048 + j.val = t.val / 32 * 2048 + j.val; omega
    · show 1024 + (I 1).val / 64 * 64 + d'.val = (8 + t.val / 4 % 8) * 128 + (cc.val / 64 * 64 + d'.val); omega
  · have hd' := d'.isLt; have hj := j.isLt
    refine iblk1_2_apply V c t _ _ ?_ ?_
    · show (I 0).val / 2048 * 2048 + j.val = t.val / 32 * 2048 + j.val; omega
    · show 2048 + (I 1).val / 64 * 64 + d'.val = (16 + t.val / 4 % 8) * 128 + (cc.val / 64 * 64 + d'.val); omega
  · show cc.val % 64 = (I 1).val % 64; omega

/-- What point t writes back is block t of the array function of the input array as the region found it. -/
theorem flushed1_eq (c : Dev nD) (t : Fin cfg1.N) :
    (dat1 (F := Ideal) V c).flushed 3 t
      = ((cfg1.win 3).blk t).view.read (Elt Ideal) (attnArr (V c main_v4)) := by
  show (cfg1.win 3).cut (grid1.coords t) ((dat1 V c).after 3 t) = _
  rw [after1_3, out1_3_eq]
  obtain ⟨-, -, -, -, -, -, e0, e1⟩ := blockIdx1 t
  funext y
  obtain ⟨r, cc, rfl⟩ : ∃ (r : Fin 512) (cc : Fin 128), y = ix2 r cc := ⟨y 0, y 1, eq_ix2 y⟩
  show blockAttnAt (iblk1 V c 0 t) (iblk1 V c 1 t) (iblk1 V c 2 t) r cc
    = attnAt (V c main_v4) ((((cfg1.win 3).blk t).view.emb (ix2 r cc)) 0) ((((cfg1.win 3).blk t).view.emb (ix2 r cc)) 1)
  refine flush_point V c t r cc _ ?_ ?_
  · show win1_3.index t (0 : Fin 2) * 512 + 1 * r.val = _; rw [e0]; omega
  · show win1_3.index t (1 : Fin 2) * 128 + 1 * cc.val = _; rw [e1]; omega

/-- An index of the output array is in point t's block iff each coordinate is in the block's range on its axis. -/
theorem mem_blk1 (t : Fin cfg1.N) (i : S8192x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v5).slice (win1_3.rect t)).set ↔ _
  rw [View.set_slice_whole, Rect.mem_set_unit]
  exact Iff.rfl

/-- Entry (R, C) lies in the block of the point of batch R / 2048, head pair C / 128, query tile R % 2048 / 512. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 128 := N_1
  obtain ⟨t, htv⟩ : ∃ t : Fin cfg1.N, t.val = ((i 0).val / 2048 * 8 + (i 1).val / 128) * 4 + (i 0).val % 2048 / 512 :=
    ⟨⟨((i 0).val / 2048 * 8 + (i 1).val / 128) * 4 + (i 0).val % 2048 / 512, by rw [hN]; omega⟩, rfl⟩
  obtain ⟨-, -, -, -, -, -, e0, e1⟩ := blockIdx1 t
  refine ⟨t, flush1_3 t, ?_⟩
  rw [mem_blk1]
  intro a
  match a with
  | ⟨0, _⟩ =>
    show win1_3.index t (0 : Fin 2) * 512 ≤ (i 0).val ∧ (i 0).val < win1_3.index t (0 : Fin 2) * 512 + 512
    rw [e0, htv]; omega
  | ⟨1, _⟩ =>
    show win1_3.index t (1 : Fin 2) * 128 ≤ (i 1).val ∧ (i 1).val < win1_3.index t (1 : Fin 2) * 128 + 128
    rw [e1, htv]; omega

/-- The array the region's write-backs leave: every entry the row attention of its query row against the key and
    value rows of its batch and head. -/
theorem final1_arr (c : Dev nD) :
    (dat1 (F := Ideal) V c).arrAt 3 cfg1.N = attnArr (V c main_v4) :=
  (dat1 (F := Ideal) V c).arrAt_eq_of_cover 3 (attnArr (V c main_v4)) (fun t _ => flushed1_eq V c t) cover1

/-- When the input array holds the packed projection, the output array holds the specification's attention output. -/
theorem final1 (c : Dev nD) (x : Cert.Spec.SX.Idx → EReal) (w : Cert.Spec.SW.Idx → EReal)
    (hQ : ∀ (b : Fin 4) (t : Fin 2048) (o : Fin 3072),
      (V c main_v4 : S8192x3072.Idx → EReal) (ix2 (row b t) o) = Cert.Spec.proj x w b t o)
    (b : Fin 4) (t : Fin 2048) (h : Fin 16) (d : Fin 64) :
    (dat1 (F := Ideal) V c).arrAt 3 cfg1.N (ix2 (row b t) (col h d))
      = Cert.Spec.attn x w b t h d := by
  have hb := b.isLt; have ht := t.isLt; have hh := h.isLt; have hd := d.isLt
  rw [final1_arr, attn_eq_rowAttn]
  show attnAt (V c main_v4) (row b t) (col h d) = _
  unfold attnAt
  refine rowAttn_congr (funext fun d' => ?_) (funext fun j => funext fun d' => ?_) (funext fun j => funext fun d' => ?_) (Fin.ext ?_)
  · have hd' := d'.isLt
    rw [← hQ b t (col3 0 h d')]
    refine congrArg (fun z => (V c main_v4 : S8192x3072.Idx → EReal) (ix2 _ z)) (Fin.ext ?_)
    show (h.val * 64 + d.val) / 64 * 64 + d'.val = 0 * 1024 + h.val * 64 + d'.val; omega
  · have hd' := d'.isLt; have hj := j.isLt
    rw [← hQ b j (col3 1 h d')]
    refine congrArg₂ (fun y z => (V c main_v4 : S8192x3072.Idx → EReal) (ix2 y z)) (Fin.ext ?_) (Fin.ext ?_)
    · show (b.val * 2048 + t.val) / 2048 * 2048 + j.val = b.val * 2048 + j.val; omega
    · show 1024 + (h.val * 64 + d.val) / 64 * 64 + d'.val = 1 * 1024 + h.val * 64 + d'.val; omega
  · have hd' := d'.isLt; have hj := j.isLt
    rw [← hQ b j (col3 2 h d')]
    refine congrArg₂ (fun y z => (V c main_v4 : S8192x3072.Idx → EReal) (ix2 y z)) (Fin.ext ?_) (Fin.ext ?_)
    · show (b.val * 2048 + t.val) / 2048 * 2048 + j.val = b.val * 2048 + j.val; omega
    · show 2048 + (h.val * 64 + d.val) / 64 * 64 + d'.val = 2 * 1024 + h.val * 64 + d'.val; omega
  · show (h.val * 64 + d.val) % 64 = d.val; omega

end Array

end Cert.KernelIdeal.Hand

end
-- ==== Proof.KI.Value2.lean ====
/- The value of region 2 (the output projection) over the extended reals: the array its output window's write-backs
   leave is, index by index, the inner product of a row of the attention output with a row of the projection
   weights, plus the bias entry of that column. First the body's stored value at an index of the block: the matrix
   product into a zero accumulator is the plain sum over the contracted axis, and the bias row broadcast down the
   block reads the row's entry at the column. Then the blocks: at grid point t the attention output's block and the
   result's block are rows 512 t .. 512 t + 511, the weights' and the bias's blocks are the whole arrays, so every
   point writes back the restriction of ONE whole-array function, and the 16 blocks cover the array. -/
import proofs.«173827_j18485539242200_2_alg».proof.Proof.KI.Body2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The stored value at an index -/

/-- The product's left operand index at output (p, q) and contraction position k keeps the row p ... -/
theorem dot2_lhs_0 (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
/-- ... and puts k on the contracted axis; -/
theorem dot2_lhs_1 (i : S512x1024.Idx) (k : dot_S512x1024_S1024x1024_S512x1024_1_1_0_0_n_n.contr.Idx) :
    (dot_S512x1024_S1024x1024_S512x1024_1_1_0_0_n_n.lhsIdx i k 1).val = (k ⟨0, by decide⟩).val :=
  dot_S512x1024_S1024x1024_S512x1024_1_1_0_0_n_n.lhsIdx_val_of_single rfl i k
/-- the right operand's takes the output's column q as its row ... -/
theorem dot2_rhs_0 (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
/-- ... and k on its contracted axis. -/
theorem dot2_rhs_1 (i : S512x1024.Idx) (k : dot_S512x1024_S1024x1024_S512x1024_1_1_0_0_n_n.contr.Idx) :
    (dot_S512x1024_S1024x1024_S512x1024_1_1_0_0_n_n.rhsIdx i k 1).val = (k ⟨0, by decide⟩).val :=
  dot_S512x1024_S1024x1024_S512x1024_1_1_0_0_n_n.rhsIdx_val_of_single rfl i k

/-- The matrix product of the body at (p, q): the inner product of row p of the left block with row q of the right. -/
theorem mm2_apply (x0 : Vec Ideal S512x1024 .bf16) (x1 : Vec Ideal S1024x1024 .bf16) (p : Fin 512) (q : Fin 1024) :
    matmul (φ₁ := .bf16) (φ₂ := .bf16) dot_S512x1024_S1024x1024_S512x1024_1_1_0_0_n_n none x0 x1 (constant (F := Ideal) S512x1024 .f32 0x00000000#32) (ix2 p q)
      = ∑ k : Fin 1024, x0 (ix2 p k) * x1 (ix2 q k) := by
  refine (Ideal.matmul_constant_zero_apply (φ₁ := .bf16) (φ₂ := .bf16) dot_S512x1024_S1024x1024_S512x1024_1_1_0_0_n_n none x0 x1 (ix2 p q)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k :=
    funext fun a => Fin.ext (by
      match a with
      | ⟨0, _⟩ => exact dot2_lhs_0 _ _
      | ⟨1, _⟩ => exact (dot2_lhs_1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k :=
    funext fun a => Fin.ext (by
      match a with
      | ⟨0, _⟩ => exact dot2_rhs_0 _ _
      | ⟨1, _⟩ => exact (dot2_rhs_1 _ _).trans hk)
  rw [el, er]

/-- The bias row broadcast down the block reads, at (p, q), the row's entry at column q. -/
theorem bias2_apply (x2 : Vec Ideal S1x1024 .f32) (p : Fin 512) (q : Fin 1024) :
    broadcastTo S512x1024 x2 broadcasts_S1x1024_S512x1024 (ix2 p q) = x2 (ix2 0 q) :=
  broadcastTo_apply x2 broadcasts_S1x1024_S512x1024 (ix2 p q) (ix2 0 q) fun a => by
    match a with
    | ⟨0, _⟩ => rfl
    | ⟨1, _⟩ => rfl

/-- The body's stored value at (p, q): the inner product of row p of the left block with row q of the weights, plus
    the bias at q. -/
theorem projBias_apply (x0 : Vec Ideal S512x1024 .bf16) (x1 : Vec Ideal S1024x1024 .bf16) (x2 : Vec Ideal S1x1024 .f32)
    (p : Fin 512) (q : Fin 1024) :
    k2_pay1 (F := Ideal) x0 x1 x2 (ix2 p q) = (∑ k : Fin 1024, x0 (ix2 p k) * x1 (ix2 q k)) + x2 (ix2 0 q) := by
  unfold k2_pay1
  simp only [shapeCast_self]
  show matmul (φ₁ := .bf16) (φ₂ := .bf16) dot_S512x1024_S1024x1024_S512x1024_1_1_0_0_n_n none x0 x1 (constant (F := Ideal) S512x1024 .f32 0x00000000#32) (ix2 p q)
      + broadcastTo S512x1024 x2 broadcasts_S1x1024_S512x1024 (ix2 p q) = _
  rw [mm2_apply, bias2_apply]

/-! ## The blocks -/

theorem zeroOff2' : (![0, 0] : Fin 2 → Nat) = fun _ => 0 := funext fun a => by fin_cases a <;> rfl

/-- The windows' block indices over the grid: the left operand's and the output's blocks move down one block of rows
    per point; the weights' and the bias's block indices never move. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks
variable (V : (c : Dev nD) → (b : Ref sig .tc) → Buf (Elt Ideal) ((c : Thread nD τ).loc b))

/-- The left operand's block at point t is rows 512 t .. 512 t + 511 of the array. -/
theorem iblk2_0_apply (c : Dev nD) (t : Fin cfg2.N) (y : S512x1024.Idx) (i : S8192x1024.Idx)
    (h0 : (i 0).val = 512 * t.val + (y 0).val) (h1 : (i 1).val = (y 1).val) :
    (iblk2 V c 0 t : Vec Ideal S512x1024 .bf16) y = (V c main_v5 : S8192x1024.Idx → EReal) i := by
  obtain ⟨e0, e1, -⟩ := blockIdx2 t
  unfold iblk2
  rw [View.read_apply]
  show V c main_v5 _ = V c main_v5 _
  refine congrArg (V c main_v5) (funext fun a => Fin.ext ?_)
  match a with
  | ⟨0, _⟩ => show win2_0.index t (0 : Fin 2) * 512 + 1 * (y 0).val = (i 0).val; rw [e0, h0]; omega
  | ⟨1, _⟩ => show win2_0.index t (1 : Fin 2) * 1024 + 1 * (y 1).val = (i 1).val; rw [e1, h1]; omega

/-- The weights' block at every point is the whole array. -/
theorem iblk2_1_apply (c : Dev nD) (t : Fin cfg2.N) (y : S1024x1024.Idx) (i : S1024x1024.Idx)
    (h0 : (i 0).val = (y 0).val) (h1 : (i 1).val = (y 1).val) :
    (iblk2 V c 1 t : Vec Ideal S1024x1024 .bf16) y = (V c main_v2 : S1024x1024.Idx → EReal) i := by
  obtain ⟨-, -, e0, e1, -⟩ := blockIdx2 t
  unfold iblk2
  rw [View.read_apply]
  show V c main_v2 _ = V c main_v2 _
  refine congrArg (V c main_v2) (funext fun a => Fin.ext ?_)
  match a with
  | ⟨0, _⟩ => show win2_1.index t (0 : Fin 2) * 1024 + 1 * (y 0).val = (i 0).val; rw [e0, h0]; omega
  | ⟨1, _⟩ => show win2_1.index t (1 : Fin 2) * 1024 + 1 * (y 1).val = (i 1).val; rw [e1, h1]; omega

/-- The bias's block at every point is the whole row. -/
theorem iblk2_2_apply (c : Dev nD) (t : Fin cfg2.N) (y : S1x1024.Idx) (i : S1x1024.Idx)
    (h0 : (i 0).val = (y 0).val) (h1 : (i 1).val = (y 1).val) :
    (iblk2 V c 2 t : Vec Ideal S1x1024 .f32) y = (V c main_v3 : S1x1024.Idx → EReal) i := by
  obtain ⟨-, -, -, -, e0, e1, -⟩ := blockIdx2 t
  unfold iblk2
  rw [View.read_apply]
  show V c main_v3 _ = V c main_v3 _
  refine congrArg (V c main_v3) (funext fun a => Fin.ext ?_)
  match a with
  | ⟨0, _⟩ => show win2_2.index t (0 : Fin 2) * 1 + 1 * (y 0).val = (i 0).val; rw [e0, h0]; omega
  | ⟨1, _⟩ => show win2_2.index t (1 : Fin 2) * 1024 + 1 * (y 1).val = (i 1).val; rw [e1, h1]; omega

end Blocks

/-! ## From the blocks to the array -/

/-- Rows against rows, plus a row: entry (r, o) is the inner product of row r of a with row o of w, plus b at o. -/
def rowDotsBias (a : S8192x1024.Idx → EReal) (w : S1024x1024.Idx → EReal) (b : S1x1024.Idx → EReal) : S8192x1024.Idx → EReal :=
  fun i => (∑ k : Fin 1024, a (ix2 (i 0) k) * w (ix2 (i 1) k)) + b (ix2 0 (i 1))

theorem rowDotsBias_apply (a : S8192x1024.Idx → EReal) (w : S1024x1024.Idx → EReal) (b : S1x1024.Idx → EReal) (r : Fin 8192) (o : Fin 1024) :
    rowDotsBias a w b (ix2 r o) = (∑ k : Fin 1024, a (ix2 r k) * w (ix2 o k)) + b (ix2 0 o) := rfl

section Array
variable (V : (c : Dev nD) → (b : Ref sig .tc) → Buf (Elt Ideal) ((c : Thread nD τ).loc b))

/-- What point t writes back is block t of that function of the three arrays as the region found them. -/
theorem flushed2_eq (c : Dev nD) (t : Fin cfg2.N) :
    (dat2 (F := Ideal) V c).flushed 3 t
      = ((cfg2.win 3).blk t).view.read (Elt Ideal) (rowDotsBias (V c main_v5) (V c main_v2) (V c main_v3)) := by
  show (cfg2.win 3).cut (grid2.coords t) ((dat2 V c).after 3 t) = _
  rw [after2_3]
  unfold out2_3
  rw [View.canon_unit_zero zeroOff2']
  simp only [View.ld_unit_zero (S := S512x1024) zeroOff2', View.ld_unit_zero (S := S1024x1024) zeroOff2', View.ld_unit_zero (S := S1x1024) zeroOff2']
  obtain ⟨-, -, -, -, -, -, e0, e1⟩ := blockIdx2 t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (iblk2 V c 2 t) (ix2 p q)
    = rowDotsBias (V c main_v5) (V c main_v2) (V c main_v3) (((cfg2.win 3).blk t).view.emb (ix2 p q))
  refine (projBias_apply (iblk2 V c 0 t) (iblk2 V c 1 t) (iblk2 V c 2 t) p q).trans ?_
  unfold rowDotsBias
  have hb := iblk2_2_apply V c t (ix2 0 q) (ix2 0 ((((cfg2.win 3).blk t).view.emb (ix2 p q)) 1)) rfl
    (by show win2_3.index t (1 : Fin 2) * 1024 + 1 * q.val = q.val; rw [e1]; omega)
  rw [hb]
  refine congrArg (· + _) (Finset.sum_congr rfl fun k _ => ?_)
  have hl := iblk2_0_apply V c t (ix2 p k) (ix2 ((((cfg2.win 3).blk t).view.emb (ix2 p q)) 0) k)
    (by show win2_3.index t (0 : Fin 2) * 512 + 1 * p.val = 512 * t.val + p.val; rw [e0]; omega) rfl
  have hr := iblk2_1_apply V c t (ix2 q k) (ix2 ((((cfg2.win 3).blk t).view.emb (ix2 p q)) 1) k)
    (by show win2_3.index t (1 : Fin 2) * 1024 + 1 * q.val = q.val; rw [e1]; omega) rfl
  rw [hl, hr]

/-- An index of the array is in point t's block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v6).slice (win2_3.rect t)).set ↔ _
  rw [View.set_slice_whole, Rect.mem_set_unit]
  exact Iff.rfl

/-- Row r lies in the block of point r / 512: the 16 blocks cover the array. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 16 := N_2
  let t : Fin cfg2.N := ⟨(i 0).val / 512, by rw [hN]; omega⟩
  obtain ⟨-, -, -, -, -, -, e0, e1⟩ := blockIdx2 t
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512
              rw [e0]; show (i 0).val / 512 * 512 ≤ (i 0).val ∧ (i 0).val < (i 0).val / 512 * 512 + 512; omega
  | ⟨1, _⟩ => show win2_3.index t (1 : Fin 2) * 1024 ≤ (i 1).val ∧ (i 1).val < win2_3.index t (1 : Fin 2) * 1024 + 1024
              rw [e1]; omega

/-- The array the region's write-backs leave: every entry the inner product of the left array's row with the weights'
    row, plus the bias entry of the column. -/
theorem final2 (c : Dev nD) :
    (dat2 (F := Ideal) V c).arrAt 3 cfg2.N = rowDotsBias (V c main_v5) (V c main_v2) (V c main_v3) :=
  (dat2 (F := Ideal) V c).arrAt_eq_of_cover 3 (rowDotsBias (V c main_v5) (V c main_v2) (V c main_v3)) (fun t _ => flushed2_eq V c t) cover2

end Array

end Cert.KernelIdeal.Hand

end
-- ==== Proof.KI.HostReads.lean ====
/- What the program's five host operations write, read at an index over the extended reals. Before the first region:
   the activations [4, 2048, 1024] flattened to [8192, 1024] (entry (b*2048 + t, k) is entry (b, t, k)); the two weight
   matrices converted to a narrower float format, which over the extended reals changes nothing; the bias [1024]
   viewed as one row [1, 1024]. After the last region: the result [8192, 1024] viewed as [4, 2048, 1024] again. -/
import proofs.«173827_j18485539242200_2_alg».proof.Proof.Gen.KernelIdeal.Regions
import proofs.«173827_j18485539242200_2_alg».proof.Proof.KI.Idx
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (outs : Outs (F := Ideal))

/-! ## The operations' results as terms of what they read -/

/-- The flattened activations are the reshape of the first argument. -/
theorem V1_v0_term (c : Dev nD) :
    (V1 (F := Ideal) m c main_v0 : S8192x1024.Idx → EReal)
      = shapeCast S8192x1024 (m ((c : Thread nD τ).loc main_arg0) : S4x2048x1024.Idx → EReal) shapeCasts_S4x2048x1024_S8192x1024 := by
  show StableHlo.after hostOps0 (fun b => m (c, b)) (Proc.devRef .tc main_v0) = _
  after_results
  rfl

/-- The packed projection weights after the format change are the second argument. -/
theorem V1_v1 (c : Dev nD) :
    (V1 (F := Ideal) m c main_v1 : S3072x1024.Idx → EReal) = (m ((c : Thread nD τ).loc main_arg1) : S3072x1024.Idx → EReal) := by
  show StableHlo.after hostOps0 (fun b => m (c, b)) (Proc.devRef .tc main_v1) = _
  after_results
  rfl

/-- The output projection weights after the format change are the third argument. -/
theorem V1_v2 (c : Dev nD) :
    (V1 (F := Ideal) m c main_v2 : S1024x1024.Idx → EReal) = (m ((c : Thread nD τ).loc main_arg2) : S1024x1024.Idx → EReal) := by
  show StableHlo.after hostOps0 (fun b => m (c, b)) (Proc.devRef .tc main_v2) = _
  after_results
  rfl

/-- The bias row is the reshape of the fourth argument. -/
theorem V1_v3_term (c : Dev nD) :
    (V1 (F := Ideal) m c main_v3 : S1x1024.Idx → EReal)
      = shapeCast S1x1024 (m ((c : Thread nD τ).loc main_arg3) : S1024.Idx → EReal) shapeCasts_S1024_S1x1024 := by
  show StableHlo.after hostOps0 (fun b => m (c, b)) (Proc.devRef .tc main_v3) = _
  after_results
  rfl

/-- The program's result is the reshape of what the last region left. -/
theorem V5_v7_term (c : Dev nD) :
    (V5 (F := Ideal) m outs c main_v7 : S4x2048x1024.Idx → EReal)
      = shapeCast S4x2048x1024 (V4 (F := Ideal) m outs c main_v6 : S8192x1024.Idx → EReal) shapeCasts_S8192x1024_S4x2048x1024 := by
  show StableHlo.after hostOps3 (V4 m outs c) (Proc.devRef .tc main_v7) = _
  after_results
  rfl

/-! ## Read at an index -/

/-- Row b*2048 + t of the flattened activations is token (b, t) of the argument. -/
theorem V1_v0 (c : Dev nD) (b : Fin 4) (t : Fin 2048) (k : Fin 1024) :
    (V1 (F := Ideal) m c main_v0 : S8192x1024.Idx → EReal) (ix2 (row b t) k)
      = (m ((c : Thread nD τ).loc main_arg0) : S4x2048x1024.Idx → EReal) (ix3 b t k) := by
  rw [V1_v0_term]
  exact shapeCast_apply _ _ (ix2 (row b t) k) (ix3 b t k) (by
    rw [Shape.rowMajor_val_three, Shape.rowMajor_val_two]
    show (b.val * 2048 + t.val) * 1024 + k.val = (row b t).val * 1024 + k.val
    rw [row_val])

/-- Column o of the bias row is entry o of the argument. -/
theorem V1_v3 (c : Dev nD) (o : Fin 1024) :
    (V1 (F := Ideal) m c main_v3 : S1x1024.Idx → EReal) (ix2 0 o)
      = (m ((c : Thread nD τ).loc main_arg3) : S1024.Idx → EReal) (ix1 o) := by
  rw [V1_v3_term]
  exact shapeCast_apply _ _ (ix2 0 o) (ix1 o) (by
    rw [Shape.rowMajor_val_one, Shape.rowMajor_val_two]
    show o.val = 0 * 1024 + o.val
    omega)

/-- Token (b, t) of the program's result is row b*2048 + t of what the last region left. -/
theorem V5_v7 (c : Dev nD) (b : Fin 4) (t : Fin 2048) (o : Fin 1024) :
    (V5 (F := Ideal) m outs c main_v7 : S4x2048x1024.Idx → EReal) (ix3 b t o)
      = (V4 (F := Ideal) m outs c main_v6 : S8192x1024.Idx → EReal) (ix2 (row b t) o) := by
  rw [V5_v7_term]
  exact shapeCast_apply _ _ (ix3 b t o) (ix2 (row b t) o) (by
    rw [Shape.rowMajor_val_three, Shape.rowMajor_val_two]
    show (row b t).val * 1024 + o.val = (b.val * 2048 + t.val) * 1024 + o.val
    rw [row_val])

end Cert.KernelIdeal.Hand

end
-- ==== Proof.KI.Bridge.lean ====
/- The two matrix-product regions' closed forms, joined to the specification's functions. The first region's array
   is rows-against-rows of the flattened activations with the packed projection weights: at row b*2048 + t it is the
   packed projection of token (b, t). The last region's array is rows-against-rows of the attention output with the
   output projection weights, plus the bias row: at row b*2048 + t it is the specification's result for token (b, t),
   once the attention output's column h*64 + d is known to hold head h's coordinate d (every column is such a column
   exactly once, so the sum over columns is the specification's sum over (head, coordinate) pairs term by term). -/
import proofs.«173827_j18485539242200_2_alg».proof.Proof.Spec
import proofs.«173827_j18485539242200_2_alg».proof.Proof.KI.Idx
import proofs.«173827_j18485539242200_2_alg».proof.Proof.KI.Value0
import proofs.«173827_j18485539242200_2_alg».proof.Proof.KI.Value2

noncomputable section

namespace Cert.KernelIdeal.Hand

open Cert.KernelIdeal
open Idealize.ShloMosaic Idealize.ShloMosaic.ValueIdx

/-- Row (b, t) of the first product is the packed projection of token (b, t), when the left array's rows are the
    tokens. -/
theorem proj_of_rowDots (x : Cert.Spec.SX.Idx → EReal) (w : Cert.Spec.SW.Idx → EReal) (a0 : S8192x1024.Idx → EReal)
    (h0 : ∀ (b : Fin 4) (t : Fin 2048) (k : Fin 1024), a0 (ix2 (row b t) k) = x (ix3 b t k))
    (b : Fin 4) (t : Fin 2048) (o : Fin 3072) :
    rowDots a0 w (ix2 (row b t) o) = Cert.Spec.proj x w b t o := by
  rw [rowDots_apply]
  unfold Cert.Spec.proj
  exact Finset.sum_congr rfl fun k _ => by rw [h0]

/-- Row (b, t) of the last product plus the bias is the specification's result for token (b, t), when the left
    array's entry at row (b, t), column h*64 + d is the attention output of head h at coordinate d and the bias row
    is the bias. -/
theorem out_of_rowDotsBias (x : Cert.Spec.SX.Idx → EReal) (w : Cert.Spec.SW.Idx → EReal) (wo : Cert.Spec.SWo.Idx → EReal)
    (bias : Cert.Spec.SB.Idx → EReal) (A1 : S8192x1024.Idx → EReal)
    (h1 : ∀ (b : Fin 4) (t : Fin 2048) (h : Fin 16) (d : Fin 64), A1 (ix2 (row b t) (col h d)) = Cert.Spec.attn x w b t h d)
    (b3 : S1x1024.Idx → EReal) (h3 : ∀ o : Fin 1024, b3 (ix2 0 o) = bias (ix1 o))
    (b : Fin 4) (t : Fin 2048) (o : Fin 1024) :
    rowDotsBias A1 wo b3 (ix2 (row b t) o) = Cert.Spec.out x w wo bias b t o := by
  rw [rowDotsBias_apply, h3]
  unfold Cert.Spec.out
  refine congrArg (· + bias (ix1 o)) (Finset.sum_congr rfl fun c _ => ?_)
  have hc : col (Cert.Spec.headOf c) (Cert.Spec.coordOf c) = c := col_div_mod c
  rw [← h1 b t (Cert.Spec.headOf c) (Cert.Spec.coordOf c), hc]

end Cert.KernelIdeal.Hand

end
-- ==== Proof.KI.Result.lean ====
/-
  The idealized kernel's result, as a function of its four argument arrays, is the specification's.
  Following the run: the first region leaves the packed projection of every token (rows of the flattened activations
  against the rows of the packed weights); the second region's entry contents have it in the array its three input
  windows read, so it leaves the attention output of every token, head and coordinate; the third region leaves the
  output projection of that plus the bias; and the last host operation views the rows as (batch element, token) again.
-/
import proofs.«173827_j18485539242200_2_alg».proof.Proof.KI.Run
import proofs.«173827_j18485539242200_2_alg».proof.Proof.KI.Value0
import proofs.«173827_j18485539242200_2_alg».proof.Proof.KI.Value1
import proofs.«173827_j18485539242200_2_alg».proof.Proof.KI.Value2
import proofs.«173827_j18485539242200_2_alg».proof.Proof.KI.HostReads
import proofs.«173827_j18485539242200_2_alg».proof.Proof.KI.Bridge

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The four argument arrays as the specification takes them. -/
abbrev argX (c : Dev nD) : Cert.Spec.SX.Idx → EReal := m ((c.tc : Thread nD τ).loc main_arg0)
abbrev argW (c : Dev nD) : Cert.Spec.SW.Idx → EReal := m ((c.tc : Thread nD τ).loc main_arg1)
abbrev argWo (c : Dev nD) : Cert.Spec.SWo.Idx → EReal := m ((c.tc : Thread nD τ).loc main_arg2)
abbrev argB (c : Dev nD) : Cert.Spec.SB.Idx → EReal := m ((c.tc : Thread nD τ).loc main_arg3)

/-- Region 1 finds the packed projection of every token in the array its input windows read. -/
theorem entry1_proj (c : Dev nD) (b : Fin 4) (t : Fin 2048) (o : Fin 3072) :
    (En1 (F := Ideal) m c main_v4 : S8192x3072.Idx → EReal) (ix2 (row b t) o) = Cert.Spec.proj (argX m c) (argW m c) b t o := by
  have e4 : (En1 (F := Ideal) m c main_v4 : S8192x3072.Idx → EReal) = arr0 m c :=
    Function.update_self (Proc.devRef .tc main_v4 : DevRef τ sig) (arr0 m c) (V1 m c)
  have e0 : (arr0 (F := Ideal) m c : S8192x3072.Idx → EReal) = rowDots (En0 m c main_v0) (En0 m c main_v1) := final0 (En0 m) c
  rw [e4, e0, show (En0 (F := Ideal) m c main_v1 : S3072x1024.Idx → EReal) = argW m c from V1_v1 m c]
  exact proj_of_rowDots (argX m c) (argW m c) _ (V1_v0 m c) b t o

/-- The program's result array is the specification's function of the argument arrays. -/
theorem result_eq (c : Dev nD) :
    (V5 (F := Ideal) m (outs m) c main_v7 : S4x2048x1024.Idx → EReal)
      = Cert.Spec.G (argX m c) (argW m c) (argWo m c) (argB m c) := by
  funext i
  obtain ⟨b, t, o, rfl⟩ : ∃ (b : Fin 4) (t : Fin 2048) (o : Fin 1024), i = ix3 b t o := ⟨i 0, i 1, i 2, eq_ix3 i⟩
  rw [V5_v7]
  show _ = Cert.Spec.out (argX m c) (argW m c) (argWo m c) (argB m c) b t o
  have e6 : (V4 (F := Ideal) m (outs m) c main_v6 : S8192x1024.Idx → EReal) = arr2 m c := by
    rw [V4_eq]; exact Function.update_self (Proc.devRef .tc main_v6 : DevRef τ sig) (arr2 m c) (Va3 m c)
  have e2 : (arr2 (F := Ideal) m c : S8192x1024.Idx → EReal) = rowDotsBias (En2 m c main_v5) (En2 m c main_v2) (En2 m c main_v3) :=
    final2 (En2 m) c
  have e5 : (En2 (F := Ideal) m c main_v5 : S8192x1024.Idx → EReal) = arr1 m c :=
    Function.update_self (Proc.devRef .tc main_v5 : DevRef τ sig) (arr1 m c) (Va2 m c)
  have ev2 : (En2 (F := Ideal) m c main_v2 : S1024x1024.Idx → EReal) = argWo m c :=
    (Function.update_of_ne (StableHlo.devRef_ne_of_ne (by decide)) _ _).trans
      ((Function.update_of_ne (StableHlo.devRef_ne_of_ne (by decide)) _ _).trans (V1_v2 m c))
  have ev3 : ∀ o : Fin 1024, (En2 (F := Ideal) m c main_v3 : S1x1024.Idx → EReal) (ix2 0 o) = argB m c (ix1 o) := fun o => by
    have e : (En2 (F := Ideal) m c main_v3 : S1x1024.Idx → EReal) = V1 m c main_v3 :=
      (Function.update_of_ne (StableHlo.devRef_ne_of_ne (by decide)) _ _).trans
        (Function.update_of_ne (StableHlo.devRef_ne_of_ne (by decide)) _ _)
    rw [e]; exact V1_v3 m c o
  have h1 : ∀ (b : Fin 4) (t : Fin 2048) (h : Fin 16) (d : Fin 64),
      (arr1 (F := Ideal) m c : S8192x1024.Idx → EReal) (ix2 (row b t) (col h d)) = Cert.Spec.attn (argX m c) (argW m c) b t h d :=
    final1 (En1 m) c (argX m c) (argW m c) (entry1_proj m c)
  rw [e6, e2, e5, ev2]
  exact out_of_rowDotsBias (argX m c) (argW m c) (argWo m c) (argB m c) (arr1 m c) h1 _ ev3 b t o

/-- Every weakly fair execution of the idealized kernel terminates with its result at the specification's function of
    the argument arrays it was started with, and the arguments unchanged. -/
theorem run_spec (ρ : Dev nD → PrngReg) :
    θ_run defs (onTc (τ := τ) (main (F := Ideal))) ⟨m, fun _ => 0, ρ⟩ fun r => ∀ c : Dev nD,
      r.2.mem ((c.tc : Thread nD τ).loc main_v7)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c _ (mem_uc main_v7 (by decide))).trans (result_eq m c),
     (h c _ (mem_uc main_arg0 (by decide))).trans (V5_main_arg0 m (outs m) c),
     (h c _ (mem_uc main_arg1 (by decide))).trans (V5_main_arg1 m (outs m) c),
     (h c _ (mem_uc main_arg2 (by decide))).trans (V5_main_arg2 m (outs m) c),
     (h c _ (mem_uc main_arg3 (by decide))).trans (V5_main_arg3 m (outs m) c)⟩) (run_all m ρ)

end Cert.KernelIdeal.Hand

end
-- ==== Proof.lean ====
/-
  The certificate's five claims.
  The two programs' frames (the kernel as printed, at the word-level instance, and its idealization at the extended
  reals) are the run of the three regions among the host operations, the argument arrays read off the last
  boundary's contents; the reference's frame is its run with the result dropped. The idealization rewrote nothing,
  so it preserves the kernel trivially. For the value claim both idealized programs end with ONE function of the
  argument arrays, the specification's: attention with a softmax over the keys, between a packed projection and an
  output projection with bias.
-/
import proofs.«173827_j18485539242200_2_alg».proof.Defs
import proofs.«173827_j18485539242200_2_alg».proof.Proof.Gen.Kernel
import proofs.«173827_j18485539242200_2_alg».proof.Proof.Gen.KernelIdeal
import proofs.«173827_j18485539242200_2_alg».proof.Proof.Gen.ReferenceIdeal
import proofs.«173827_j18485539242200_2_alg».proof.Proof.Gen.Pre_finite_inputs
import proofs.«173827_j18485539242200_2_alg».proof.Proof.K.Run
import proofs.«173827_j18485539242200_2_alg».proof.Proof.KI.Run
import proofs.«173827_j18485539242200_2_alg».proof.Proof.RefValue
import proofs.«173827_j18485539242200_2_alg».proof.Proof.KI.Result
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The idealization rewrote no operation. -/
theorem preserves : Cert.preserves_Kernel_KernelIdeal := trivial

/-- Both idealized programs, from memories agreeing on the arguments, end with the specification's function of those
    arguments: the kernel's three regions compose to it, and the reference's operations compose to it. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hand.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, preserves, algebraic⟩

end Cert.Proof

end
